-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1x512 : Shape := ⟨4, ![16, 4096, 1, 512]⟩
abbrev S16x512 : Shape := ⟨2, ![16, 512]⟩
abbrev S16x4096 : Shape := ⟨2, ![16, 4096]⟩
abbrev S512 : Shape := ⟨1, ![512]⟩
abbrev S512x1024 : Shape := ⟨2, ![512, 1024]⟩
abbrev S_ : Shape := ⟨0, ![]⟩

class Facts : Prop where
  bcast_S_S16x4096x1x512 : S_.BroadcastsInDim S16x4096x1x512 (![] : Fin 0 → Fin S16x4096x1x512.rank)
  reducesTo_S16x4096x1x512_S_d0_1_2_3 : S16x4096x1x512.ReducesTo [0, 1, 2, 3] S_
  h_S_ : 0 < S_.numel
  bcast_S_S16x512 : S_.BroadcastsInDim S16x512 (![] : Fin 0 → Fin S16x512.rank)
  reducesTo_S16x512_S_d0_1 : S16x512.ReducesTo [0, 1] S_
  bcast_S_S16x4096 : S_.BroadcastsInDim S16x4096 (![] : Fin 0 → Fin S16x4096.rank)
  reducesTo_S16x4096_S_d0_1 : S16x4096.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S16x4096 .f32) (main_arg5 : FVec F S512 .f32) (main_arg6 : FVec F S512x1024 .f32) (main_arg7 : FVec F S512 .f32) (main_v13 : IVec S_ 1) (main_v16 : IVec S16x4096x1x512 1) : IVec S_ 1 :=
  let main_c_5 : IVec S_ 1 := constantI S_ 1 1#1
  let main_v17 : IVec S_ 1 := (fun x v => Host.reduce IntOp.andi x v reducesTo_S16x4096x1x512_S_d0_1_2_3 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S16x4096x1x512 .f32) (main_arg1 : FVec F S16x512 .f32) (main_arg2 : FVec F S16x512 .f32) (main_arg3 : FVec F S16x4096x1x512 .f32) (main_arg4 : FVec F S16x4096 .f32) (main_arg5 : FVec F S512 .f32) (main_arg6 : FVec F S512x1024 .f32) (main_arg7 : FVec F S512 .f32) : IVec S_ 1 :=
  let main_v0 : FVec F S16x4096x1x512 .f32 := Host.absf main_arg0
  let main_cst : FVec F S_ .f32 := constant S_ .f32 0x7F800000#32
  let main_v1 : FVec F S16x4096x1x512 .f32 := broadcastInDim S16x4096x1x512 ![] bcast_S_S16x4096x1x512 main_cst
  let main_v2 : IVec S16x4096x1x512 1 := cmpf .olt main_v0 main_v1
  let main_c : IVec S_ 1 := constantI S_ 1 1#1
  let main_v3 : IVec S_ 1 := (fun x v => Host.reduce IntOp.andi x v reducesTo_S16x4096x1x512_S_d0_1_2_3 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x512 .f32 := Host.absf main_arg2
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  let main_v14 : FVec F S16x4096x1x512 .f32 := Host.absf main_arg3
  let main_cst_4 : FVec F S_ .f32 := constant S_ .f32 0x7F800000#32
  let main_v15 : FVec F S16x4096x1x512 .f32 := broadcastInDim S16x4096x1x512 ![] bcast_S_S16x4096x1x512 main_cst_4
  let main_v16 : IVec S16x4096x1x512 1 := cmpf .olt main_v14 main_v15
  fn_part1 (F := F) main_arg4 main_arg5 main_arg6 main_arg7 main_v13 main_v16
-- ==== Kernel.lean ====
abbrev S16x4096x1x512 : Shape := ⟨4, ![16, 4096, 1, 512]⟩
abbrev S16x512 : Shape := ⟨2, ![16, 512]⟩
abbrev S16x4096 : Shape := ⟨2, ![16, 4096]⟩
abbrev S512 : Shape := ⟨1, ![512]⟩
abbrev S512x1024 : Shape := ⟨2, ![512, 1024]⟩
abbrev S16x4096x512 : Shape := ⟨3, ![16, 4096, 512]⟩
abbrev S16x1024 : Shape := ⟨2, ![16, 1024]⟩
abbrev S1024x512 : Shape := ⟨2, ![1024, 512]⟩
abbrev S1x512 : Shape := ⟨2, ![1, 512]⟩
abbrev S16x256x512 : Shape := ⟨3, ![16, 256, 512]⟩
abbrev S16x256 : Shape := ⟨2, ![16, 256]⟩
abbrev S16x128x512 : Shape := ⟨3, ![16, 128, 512]⟩
abbrev S16x1x512 : Shape := ⟨3, ![16, 1, 512]⟩
abbrev S1x1x512 : Shape := ⟨3, ![1, 1, 512]⟩
abbrev S16x128 : Shape := ⟨2, ![16, 128]⟩
abbrev S_ : Shape := ⟨0, ![]⟩
abbrev S16 : Shape := ⟨1, ![16]⟩
abbrev S16x1 : Shape := ⟨2, ![16, 1]⟩
abbrev S8x512 : Shape := ⟨2, ![8, 512]⟩
abbrev S8x512x512 : Shape := ⟨3, ![8, 512, 512]⟩
abbrev S8x128 : Shape := ⟨2, ![8, 128]⟩
abbrev S8x128x512 : Shape := ⟨3, ![8, 128, 512]⟩
abbrev S8x128x1 : Shape := ⟨3, ![8, 128, 1]⟩

abbrev nBuf : Space → Nat
  | .hbm => 39
  | .vmem => 13
  | .smem => 0
  | _ => 0

abbrev bufTy : (tb : Table) → Fin (tcTables nBuf tb) → BufTy
  | .hbm, ⟨0, _⟩ => ⟨S16x4096x1x512, .f32⟩
  | .hbm, ⟨1, _⟩ => ⟨S16x512, .f32⟩
  | .hbm, ⟨2, _⟩ => ⟨S16x512, .f32⟩
  | .hbm, ⟨3, _⟩ => ⟨S16x4096x1x512, .f32⟩
  | .hbm, ⟨4, _⟩ => ⟨S16x4096, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S16x4096x512, .f32⟩
  | .hbm, ⟨9, _⟩ => ⟨S16x4096x512, .f32⟩
  | .hbm, ⟨10, _⟩ => ⟨S16x1024, .f32⟩
  | .hbm, ⟨11, _⟩ => ⟨S1024x512, .f32⟩
  | .hbm, ⟨12, _⟩ => ⟨S16x512, .f32⟩
  | .hbm, ⟨13, _⟩ => ⟨S1x512, .f32⟩
  | .hbm, ⟨14, _⟩ => ⟨S16x512, .f32⟩
  | .hbm, ⟨15, _⟩ => ⟨S16x512, .f32⟩
  | .hbm, ⟨16, _⟩ => ⟨S1x512, .f32⟩
  | .hbm, ⟨17, _⟩ => ⟨S16x4096, .f32⟩
  | .hbm, ⟨18, _⟩ => ⟨S_, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S16x1, .f32⟩
  | .hbm, ⟨24, _⟩ => ⟨S16x4096, .f32⟩
  | .hbm, ⟨25, _⟩ => ⟨S16x4096, .f32⟩
  | .hbm, ⟨26, _⟩ => ⟨S16x4096, .f32⟩
  | .hbm, ⟨27, _⟩ => ⟨S_, .f32⟩
  | .hbm, ⟨28, _⟩ => ⟨S16, .f32⟩
  | .hbm, ⟨29, _⟩ => ⟨S16x1, .f32⟩
  | .hbm, ⟨30, _⟩ => ⟨S16x4096, .f32⟩
  | .hbm, ⟨31, _⟩ => ⟨S16x4096, .f32⟩
  | .hbm, ⟨32, _⟩ => ⟨S16x4096, .f32⟩
  | .hbm, ⟨33, _⟩ => ⟨S_, .f32⟩
  | .hbm, ⟨34, _⟩ => ⟨S16, .f32⟩
  | .hbm, ⟨35, _⟩ => ⟨S16x1, .f32⟩
  | .hbm, ⟨36, _⟩ => ⟨S16x4096, .f32⟩
  | .hbm, ⟨37, _⟩ => ⟨S16x4096, .f32⟩
  | .hbm, ⟨38, _⟩ => ⟨S16x512, .f32⟩
  | .local _ .vmem, ⟨0, _⟩ => ⟨S16x256x512, .f32⟩
  | .local _ .vmem, ⟨1, _⟩ => ⟨S16x256x512, .f32⟩
  | .local _ .vmem, ⟨2, _⟩ => ⟨S16x512, .f32⟩
  | .local _ .vmem, ⟨3, _⟩ => ⟨S1x512, .f32⟩
  | .local _ .vmem, ⟨4, _⟩ => ⟨S16x256, .f32⟩
  | .local _ .vmem, ⟨5, _⟩ => ⟨S16x256, .f32⟩
  | .local _ .vmem, ⟨6, _⟩ => ⟨S8x512, .f32⟩
  | .local _ .vmem, ⟨7, _⟩ => ⟨S8x512, .f32⟩
  | .local _ .vmem, ⟨8, _⟩ => ⟨S8x512x512, .f32⟩
  | .local _ .vmem, ⟨9, _⟩ => ⟨S8x512x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | _, _ => ⟨S16x4096x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v4 : BitVec 32 := Scalar.muli c0_i32 c128_i32
  v4
def k0_off1 (c0_i32 : BitVec 32) : Fin 3 → Nat :=
  let c0_3 : Index := 0#32
  let c128_i32 : BitVec 32 := 128#32
  let v4 : BitVec 32 := Scalar.muli c0_i32 c128_i32
  let v5 : BitVec 32 := v4
  let v6 : Index := Scalar.indexCast v5
  let c0_4 : Index := 0#32
  ![0, v6.toNat, 0]
def k0_off2 (c0_i32 : BitVec 32) : Fin 2 → Nat :=
  let c0_5 : Index := 0#32
  let c128_i32 : BitVec 32 := 128#32
  let v4 : BitVec 32 := Scalar.muli c0_i32 c128_i32
  let v5 : BitVec 32 := v4
  let v17 : Index := Scalar.indexCast v5
  ![0, v17.toNat]
def k0_mult2 : BitVec 32 :=
  let c1_i32 : BitVec 32 := 1#32
  let c128_i32_6 : BitVec 32 := 128#32
  let v19 : BitVec 32 := Scalar.muli c1_i32 c128_i32_6
  v19
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

def k1_mult1 : BitVec 32 :=
  let c0_i32_1 : BitVec 32 := 0#32
  let c128_i32 : BitVec 32 := 128#32
  let v3 : BitVec 32 := Scalar.muli c0_i32_1 c128_i32
  v3
def k1_off1 (c0_i32_1 : BitVec 32) : Fin 2 → Nat :=
  let c0 : Index := 0#32
  let c128_i32 : BitVec 32 := 128#32
  let v3 : BitVec 32 := Scalar.muli c0_i32_1 c128_i32
  let v4 : BitVec 32 := v3
  let v5 : Index := Scalar.indexCast v4
  ![0, v5.toNat]
def k1_off2 (c0_i32_1 : BitVec 32) : Fin 3 → Nat :=
  let c0_2 : Index := 0#32
  let c128_i32 : BitVec 32 := 128#32
  let v3 : BitVec 32 := Scalar.muli c0_i32_1 c128_i32
  let v4 : BitVec 32 := v3
  let v8 : Index := Scalar.indexCast v4
  let c0_3 : Index := 0#32
  ![0, v8.toNat, 0]
def k1_mult2 : BitVec 32 :=
  let c1_i32 : BitVec 32 := 1#32
  let c128_i32_8 : BitVec 32 := 128#32
  let v20 : BitVec 32 := Scalar.muli c1_i32 c128_i32_8
  v20
def k1_mult3 : BitVec 32 :=
  let c2_i32 : BitVec 32 := 2#32
  let c128_i32_17 : BitVec 32 := 128#32
  let v37 : BitVec 32 := Scalar.muli c2_i32 c128_i32_17
  v37
def k1_mult4 : BitVec 32 :=
  let c3_i32 : BitVec 32 := 3#32
  let c128_i32_26 : BitVec 32 := 128#32
  let v54 : BitVec 32 := Scalar.muli c3_i32 c128_i32_26
  v54
def k1_cond2 (i : grid1.Coords) : BitVec 1 :=
  let arg1 : BitVec 32 := BitVec.ofNat 32 (i 1).val
  let c7_i32 : BitVec 32 := 7#32
  let v71 : BitVec 1 := Scalar.cmpi .eq arg1 c7_i32
  let v72 : BitVec 32 := Scalar.extui v71
  let c0_i32_35 : BitVec 32 := 0#32
  let v73 : BitVec 1 := Scalar.cmpi .ne v72 c0_i32_35
  v73

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S16x4096x1x512_S16x4096x512 : S16x4096x1x512.ShapeCasts S16x4096x512
  concatenates_S16x512_S16x512_S16x1024_d1 : Shape.Concatenates [S16x512, S16x512] S16x1024 1
  transposes_S512x1024_S1024x512_1_0 : S512x1024.Transposes [1, 0] S1024x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  shapeCasts_S512_S1x512 : S512.ShapeCasts S1x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  h_S16x128x512 : 0 < S16x128x512.numel
  shapeCasts_S16x128x512_S16x128x512 : S16x128x512.ShapeCasts S16x128x512
  shapeCasts_S16x512_S16x1x512 : S16x512.ShapeCasts S16x1x512
  broadcasts_S16x1x512_S16x128x512 : S16x1x512.Broadcasts S16x128x512
  shapeCasts_S1x512_S1x1x512 : S1x512.ShapeCasts S1x1x512
  broadcasts_S1x1x512_S16x128x512 : S1x1x512.Broadcasts S16x128x512
  reduces_S16x128x512_S16x128 : S16x128x512.Reduces [2] S16x128
  h_S16x128 : 0 < S16x128.numel
  reducesTo_S16x4096_S16_d1 : S16x4096.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x4096_0_1 : S16x1.BroadcastsInDim S16x4096 (![0, 1] : Fin 2 → Fin S16x4096.rank)
  inb_S8x512_S8x512_0_0 : ∀ a, (![0, 0] : Fin 2 → Nat) a + S8x512.size a ≤ S8x512.size a
  h_S8x512 : 0 < S8x512.numel
  shapeCasts_S8x512_S8x512 : S8x512.ShapeCasts S8x512
  h_S8x128 : 0 < S8x128.numel
  shapeCasts_S8x128_S8x128 : S8x128.ShapeCasts S8x128
  h_S8x128x512 : 0 < S8x128x512.numel
  shapeCasts_S8x128x512_S8x128x512 : S8x128x512.ShapeCasts S8x128x512
  shapeCasts_S8x128_S8x128x1 : S8x128.ShapeCasts S8x128x1
  broadcasts_S8x128x1_S8x128x512 : S8x128x1.Broadcasts S8x128x512
  reduces_S8x128x512_S8x512 : S8x128x512.Reduces [1] S8x512
  dot_S16x1024_S1024x512_S16x512_1_0_0_1_n_n_wf : DotDims.WF S16x1024 S1024x512 S16x512 [1] [0] [0] [1] [] []
  hrank0 : 0 < grid0.rank
  k0_mult1_dvd : 128 ∣ k0_mult1.toNat
  k0_off1_inb : ∀ (r : Fin 2), ∀ a, (k0_off1 (BitVec.ofNat 32 r.val)) a + S16x128x512.size a ≤ S16x256x512.size a
  k0_off2_inb : ∀ (r : Fin 2), ∀ a, (k0_off2 (BitVec.ofNat 32 r.val)) a + S16x128.size a ≤ S16x256.size a
  k0_mult2_dvd : 128 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x512.size a ≤ S16x4096x512.size a
  hwx0_0 : ∀ i : grid0.Coords, EltTy.bits .f32 = 32 ∨ (Rect.block (s := S16x4096x512) S16x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x512.size a
  hwx0_1 : ∀ i : grid0.Coords, EltTy.bits .f32 = 32 ∨ (Rect.block (s := S16x512) S16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x4096.size a
  hwx0_3 : ∀ i : grid0.Coords, EltTy.bits .f32 = 32 ∨ (Rect.block (s := S16x4096) S16x256.size (cc0_transform_3 i) (hinb0_3 i)).WholeWords (EltTy.packing .f32)
  hrank1 : 0 < grid1.rank
  k1_mult1_dvd : 128 ∣ k1_mult1.toNat
  k1_off1_inb : ∀ (r : Fin 4), ∀ a, (k1_off1 (BitVec.ofNat 32 r.val)) a + S8x128.size a ≤ S8x512.size a
  k1_off2_inb : ∀ (r : Fin 4), ∀ a, (k1_off2 (BitVec.ofNat 32 r.val)) a + S8x128x512.size a ≤ S8x512x512.size a
  k1_mult2_dvd : 128 ∣ k1_mult2.toNat
  k1_mult3_dvd : 128 ∣ k1_mult3.toNat
  k1_mult4_dvd : 128 ∣ k1_mult4.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512.size a ≤ S16x4096.size a
  hwx1_0 : ∀ i : grid1.Coords, EltTy.bits .f32 = 32 ∨ (Rect.block (s := S16x4096) S8x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x512.size a ≤ S16x4096x512.size a
  hwx1_1 : ∀ i : grid1.Coords, EltTy.bits .f32 = 32 ∨ (Rect.block (s := S16x4096x512) S8x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S16x512.size a
  hwx1_2 : ∀ i : grid1.Coords, EltTy.bits .f32 = 32 ∨ (Rect.block (s := S16x512) S8x512.size (cc1_transform_2 i) (hinb1_2 i)).WholeWords (EltTy.packing .f32)

variable [Facts₀]

def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf

abbrev win0_0 : Pipeline.Window sig grid0 :=
  Pipeline.Window.ofSpec (Memref.whole main_v0) S16x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S16x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S8x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16x4096x1x512 : Shape := ⟨4, ![16, 4096, 1, 512]⟩
abbrev S16x512 : Shape := ⟨2, ![16, 512]⟩
abbrev S16x4096 : Shape := ⟨2, ![16, 4096]⟩
abbrev S512 : Shape := ⟨1, ![512]⟩
abbrev S512x1024 : Shape := ⟨2, ![512, 1024]⟩
abbrev S16x1024 : Shape := ⟨2, ![16, 1024]⟩
abbrev S1024x512 : Shape := ⟨2, ![1024, 512]⟩
abbrev S1x512 : Shape := ⟨2, ![1, 512]⟩
abbrev S16x1x1x512 : Shape := ⟨4, ![16, 1, 1, 512]⟩
abbrev S1x1x1x512 : Shape := ⟨4, ![1, 1, 1, 512]⟩
abbrev S_ : Shape := ⟨0, ![]⟩
abbrev S16 : Shape := ⟨1, ![16]⟩
abbrev S16x1 : Shape := ⟨2, ![16, 1]⟩
abbrev S16x4096x1x1 : Shape := ⟨4, ![16, 4096, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S16x4096x1x512, .f32⟩
  | .hbm, ⟨1, _⟩ => ⟨S16x512, .f32⟩
  | .hbm, ⟨2, _⟩ => ⟨S16x512, .f32⟩
  | .hbm, ⟨3, _⟩ => ⟨S16x4096x1x512, .f32⟩
  | .hbm, ⟨4, _⟩ => ⟨S16x4096, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S16x1024, .f32⟩
  | .hbm, ⟨9, _⟩ => ⟨S1024x512, .f32⟩
  | .hbm, ⟨10, _⟩ => ⟨S16x512, .f32⟩
  | .hbm, ⟨11, _⟩ => ⟨S1x512, .f32⟩
  | .hbm, ⟨12, _⟩ => ⟨S16x512, .f32⟩
  | .hbm, ⟨13, _⟩ => ⟨S16x512, .f32⟩
  | .hbm, ⟨14, _⟩ => ⟨S16x1x1x512, .f32⟩
  | .hbm, ⟨15, _⟩ => ⟨S16x4096x1x512, .f32⟩
  | .hbm, ⟨16, _⟩ => ⟨S16x4096x1x512, .f32⟩
  | .hbm, ⟨17, _⟩ => ⟨S16x4096x1x512, .f32⟩
  | .hbm, ⟨18, _⟩ => ⟨S1x1x1x512, .f32⟩
  | .hbm, ⟨19, _⟩ => ⟨S16x4096x1x512, .f32⟩
  | .hbm, ⟨20, _⟩ => ⟨S16x4096x1x512, .f32⟩
  | .hbm, ⟨21, _⟩ => ⟨S_, .f32⟩
  | .hbm, ⟨22, _⟩ => ⟨S16x4096, .f32⟩
  | .hbm, ⟨23, _⟩ => ⟨S_, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S16x1, .f32⟩
  | .hbm, ⟨29, _⟩ => ⟨S16x4096, .f32⟩
  | .hbm, ⟨30, _⟩ => ⟨S16x4096, .f32⟩
  | .hbm, ⟨31, _⟩ => ⟨S16x4096, .f32⟩
  | .hbm, ⟨32, _⟩ => ⟨S_, .f32⟩
  | .hbm, ⟨33, _⟩ => ⟨S16, .f32⟩
  | .hbm, ⟨34, _⟩ => ⟨S16x1, .f32⟩
  | .hbm, ⟨35, _⟩ => ⟨S16x4096, .f32⟩
  | .hbm, ⟨36, _⟩ => ⟨S16x4096, .f32⟩
  | .hbm, ⟨37, _⟩ => ⟨S16x4096, .f32⟩
  | .hbm, ⟨38, _⟩ => ⟨S_, .f32⟩
  | .hbm, ⟨39, _⟩ => ⟨S16, .f32⟩
  | .hbm, ⟨40, _⟩ => ⟨S16x1, .f32⟩
  | .hbm, ⟨41, _⟩ => ⟨S16x4096, .f32⟩
  | .hbm, ⟨42, _⟩ => ⟨S16x4096, .f32⟩
  | .hbm, ⟨43, _⟩ => ⟨S16x4096x1x1, .f32⟩
  | .hbm, ⟨44, _⟩ => ⟨S16x4096x1x512, .f32⟩
  | .hbm, ⟨45, _⟩ => ⟨S16x4096x1x512, .f32⟩
  | .hbm, ⟨46, _⟩ => ⟨S_, .f32⟩
  | .hbm, ⟨47, _⟩ => ⟨S16x512, .f32⟩
  | _, _ => ⟨S16x4096x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  concatenates_S16x512_S16x512_S16x1024_d1 : Shape.Concatenates [S16x512, S16x512] S16x1024 1
  transposes_S512x1024_S1024x512_1_0 : S512x1024.Transposes [1, 0] S1024x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S16x512_S16x1x1x512_0_3 : S16x512.BroadcastsInDim S16x1x1x512 (![0, 3] : Fin 2 → Fin S16x1x1x512.rank)
  bcast_S16x1x1x512_S16x4096x1x512_0_1_2_3 : S16x1x1x512.BroadcastsInDim S16x4096x1x512 (![0, 1, 2, 3] : Fin 4 → Fin S16x4096x1x512.rank)
  bcast_S512_S1x1x1x512_3 : S512.BroadcastsInDim S1x1x1x512 (![3] : Fin 1 → Fin S1x1x1x512.rank)
  bcast_S1x1x1x512_S16x4096x1x512_0_1_2_3 : S1x1x1x512.BroadcastsInDim S16x4096x1x512 (![0, 1, 2, 3] : Fin 4 → Fin S16x4096x1x512.rank)
  reducesTo_S16x4096x1x512_S16x4096_d2_3 : S16x4096x1x512.ReducesTo [2, 3] S16x4096
  h_S_ : 0 < S_.numel
  reducesTo_S16x4096_S16_d1 : S16x4096.ReducesTo [1] S16
  bcast_S_S16 : S_.BroadcastsInDim S16 (![] : Fin 0 → Fin S16.rank)
  bcast_S16_S16x1_0 : S16.BroadcastsInDim S16x1 (![0] : Fin 1 → Fin S16x1.rank)
  bcast_S16x1_S16x4096_0_1 : S16x1.BroadcastsInDim S16x4096 (![0, 1] : Fin 2 → Fin S16x4096.rank)
  bcast_S16x4096_S16x4096x1x1_0_1 : S16x4096.BroadcastsInDim S16x4096x1x1 (![0, 1] : Fin 2 → Fin S16x4096x1x1.rank)
  bcast_S16x4096x1x1_S16x4096x1x512_0_1_2_3 : S16x4096x1x1.BroadcastsInDim S16x4096x1x512 (![0, 1, 2, 3] : Fin 4 → Fin S16x4096x1x512.rank)
  reducesTo_S16x4096x1x512_S16x512_d1_2 : S16x4096x1x512.ReducesTo [1, 2] S16x512
  dot_S16x1024_S1024x512_S16x512_1_0_0_1_n_n_wf : DotDims.WF S16x1024 S1024x512 S16x512 [1] [0] [0] [1] [] []

variable [Facts₀]

def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf

class Facts : Prop extends Facts₀ where

variable [Facts]
-- ==== Proof.K_R0Body.lean ====
import proofs.«165522_j54606214201412_2_alg».proof.Proof.Gen.Kernel.Launch
import proofs.«165522_j54606214201412_2_alg».proof.Proof.Gen.Kernel.Skeleton
import proofs.«165522_j54606214201412_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The scores kernel's body, at every grid point

The first kernel region walks 16 grid points along the sequence axis. At point `t` its body reads three
inputs — the block of 256 sequence rows of the encoder features, the whole decoder projection, the whole
attention vector — and writes the block of 256 scores in two halves of 128 columns. This module states what
the body leaves in the output's staging buffer as a function of the three input blocks, proves the body's
separation-logic triple, and packages both as the pipeline's proof data and body obligation. Nothing here
depends on the float model. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the
    pipeline does not fetch, the block index has not moved, and the body leaves the block in place. Window 0
    (the encoder features' block of rows), -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- window 1 (the whole decoder projection, fetched once), -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- and window 2 (the whole attention vector, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole decoder projection. -/
abbrev r0_dec : Rect S16x512 := Rect.unit (s := S16x512) ![0, 0] S16x512.size inb_S16x512_S16x512_0_0
/-- The whole attention vector. -/
abbrev r0_vec : Rect S1x512 := Rect.unit (s := S1x512) ![0, 0] S1x512.size inb_S1x512_S1x512_0_0
/-- Rows 0..127 and rows 128..255 of the features' block. -/
abbrev r0_inLo : Rect S16x256x512 := Rect.unit (s := S16x256x512) (k0_off1 0#32) S16x128x512.size (k0_off1_inb 0)
abbrev r0_inHi : Rect S16x256x512 := Rect.unit (s := S16x256x512) (k0_off1 1#32) S16x128x512.size (k0_off1_inb 1)
/-- Columns 0..127 and columns 128..255 of the scores' block. -/
abbrev r0_outLo : Rect S16x256 := Rect.unit (s := S16x256) (k0_off2 0#32) S16x128.size (k0_off2_inb 0)
abbrev r0_outHi : Rect S16x256 := Rect.unit (s := S16x256) (k0_off2 1#32) S16x128.size (k0_off2_inb 1)

/-! ## What the body leaves in the output window's buffer -/

/-- The scores' staging buffer after the body, from the three input blocks `x1` (decoder projection), `x2`
    (attention vector), `x0` (features): its two stores as pieces, the last first. Each half's payload is the
    lane-sum of `tanh (features + projection) · vector` over that half's rows. -/
def out0_3 (x1 : Vec F S16x512 .f32) (x2 : Vec F S1x512 .f32) (x0 : Vec F S16x256x512 .f32) : Vec F S16x256 .f32 :=
  View.canon [⟨r0_outHi, k0_pay4 (View.ld x1 r0_dec) (View.ld x2 r0_vec) (View.ld x0 r0_inHi)⟩,
              ⟨r0_outLo, k0_pay3 (View.ld x1 r0_dec) (View.ld x2 r0_vec) (View.ld x0 r0_inLo)⟩]

/-- The two halves tile the block's columns, so they cover it. -/
theorem cover0_3 (p1 p0 : Vec F S16x128 .f32) (y : S16x256.Idx) :
    ∃ pc ∈ ([⟨r0_outHi, p1⟩, ⟨r0_outLo, p0⟩] : List (View.Piece (Elt F) S16x256 .f32)), y ∈ pc.1.set :=
  View.cover_of_tiled [⟨r0_outHi, p1⟩, ⟨r0_outLo, p0⟩] S16x128.size (by rfl) y

/-! ## The body's triple -/

set_option maxHeartbeats 1000000 in
/-- The kernel body on whole staging memrefs, the three inputs' at read contents `x0`, `x1`, `x2` and the
    output's at anything, runs to the continuation holding the inputs' as they were and the output's at
    `out0_3` of the inputs. The body's two loads of the output buffer read values it never uses. -/
theorem sound_kernel0 (c : Dev nD) (E : Set ℕ) (i : grid0.Coords)
    (arg1 : Memref sig .tc .vmem S16x256x512 .f32) (harg1 : arg1.IsWhole)
    (arg2 : Memref sig .tc .vmem S16x512 .f32) (harg2 : arg2.IsWhole)
    (arg3 : Memref sig .tc .vmem S1x512 .f32) (harg3 : arg3.IsWhole)
    (arg4 : Memref sig .tc .vmem S16x256 .f32) (harg4 : arg4.IsWhole)
    (x0 : Vec F S16x256x512 .f32) (x1 : Vec F S16x512 .f32) (x2 : Vec F S1x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x1 x2 x0)) -∗ K ⟨⟩))
      ⊢ wp frame (wpE (defs₀ (F := F)) Variants.none c none) E (cc0__scores_kernel i arg1 harg1 arg2 harg2 arg3 harg3 arg4 harg4) K := by
  simp only [cc0__scores_kernel_eq_skeleton]; unfold cc0__scores_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _ _)

/-! ## The pipeline's proof data -/

/-- The proof data of the scores pipeline on core `c`: the arrays as the region finds them; after the body at
    point `t` each input's buffer still at its block and the output's at `out0_3` of the input blocks; the
    invariant is the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 1 t) (iblk0 V c 2 t) (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 1 t) (iblk0 V c 2 t) (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debts, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging buffers hold their blocks, so the body's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K_R1Base.lean ====
/-
  The context kernel's region, part one: what its runs are stated over.

  The region walks a grid of 2 × 8 points (bi, l), point number t = 8·bi + l.  At a point the body is
  handed the block [8, 512] of the attention weights at (bi, l), the block [8, 512, 512] of the encoder
  states at (bi, l, 0), the output block [8, 512] at (bi, 0) and an accumulator of the same shape that
  it keeps between points.  At l = 0 it clears the accumulator; at every point it adds to it, one after
  the other, the four partial sums over 128 consecutive positions of weight · state; at l = 7 it copies
  the accumulator into the output block, which is written back at exactly those points.  So a point is
  in one of three cases — first of a row of points (l = 0), last (l = 7), or in between — decided here
  once over the sixteen points as t % 8 = 0 and t % 8 = 7.
-/
import proofs.«165522_j54606214201412_2_alg».proof.Proof.Gen.Kernel.Launch
import proofs.«165522_j54606214201412_2_alg».proof.Proof.Gen.Kernel.Skeleton
import proofs.«165522_j54606214201412_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full-size extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weights' staging buffer holds the weights' block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the encoder states' block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "This is the first point of its row" (l = 0), as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last point of its row" (l = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point of a row nothing is stored into the output block and it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point of a row the output block is stored. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S8x512 .f32 := (Memref.whole cc1_stg2_0 : Memref sig .tc .vmem S8x512 .f32).view
abbrev ms1_0 (t : Fin cfg1.N) : Memref sig .tc .vmem S8x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S8x512 .f32 := Memref.whole cc1_scratch0
abbrev VS1_0 : View sig .tc .vmem S8x512 .f32 := scM1_0.view

/-! ## The region invariant, opened -/

/-- The core's scoped buffers no window of this region stages, the accumulator apart: the six staging buffers of
    the scores kernel, each whole at some contents — untouched by this region — beside `S`, what is said of the
    accumulator. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The class invariant is those buffers, the accumulator at some contents, and the generator register at some state. -/
theorem PhiA1_eq (c : Dev nD) :
    (Pipeline.ΦA spec1 c : sProp 𝕄)
      = iprop(scoped1 c (iprop(∃ d, owns (c : Thread nD τ) scM1_0 fullShare d)) ∗ (∃ r, prngReg c r)) := by
  unfold Pipeline.ΦA scoped1; rw [scopedRest1_eq]; simp only [scM1_0, owns_whole]; try rfl

end Cert.Kernel.Hand

end
-- ==== Proof.K_R1RunA.lean ====
/-
  The context kernel's body at the FIRST point of a row of points (l = 0, and not the last).

  Handed the weights' block x0, the states' block x1, the output block at contents it leaves untouched,
  and the accumulator at anything, the body runs to its end with the inputs and the output block as they
  were and the accumulator holding what its stores left: it was cleared and then received the four
  partial sums.  The stores are recorded as a list of pieces (last store first); which pieces is found by
  running the body, and read back as a function in the next module.
-/
import proofs.«165522_j54606214201412_2_alg».proof.Proof.K_R1Base

-- membership in a rectangle of full-size extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's stores at a first point, as pieces, with the body's run to the continuation. -/
noncomputable def kernelRun1_A (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512 .f32) (x1 : Vec F S8x512x512 .f32) :
    { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨?_, fun xi2 E K => ?run⟩
  case run =>
    simp only [cc1__context_kernel_eq_skeleton]; unfold cc1__context_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K_R1RunB.lean ====
/-
  The context kernel's body at a point that is neither first nor last in its row (0 < l < 7).

  Handed the weights' block x0, the states' block x1, the output block at contents it leaves untouched and
  the accumulator at what the point before left (xs0), the body runs to its end with the inputs and the
  output block as they were and the accumulator holding xs0 plus the four partial sums, recorded as the
  pieces its stores wrote (last store first).
-/
import proofs.«165522_j54606214201412_2_alg».proof.Proof.K_R1RunA

-- membership in a rectangle of full-size extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's stores at a middle point, as pieces, with the body's run to the continuation. -/
noncomputable def kernelRun1_B (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512 .f32) (x1 : Vec F S8x512x512 .f32) (xs0 : Vec F S8x512 .f32) :
    { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨?_, fun xi2 E K => ?run⟩
  case run =>
    simp only [cc1__context_kernel_eq_skeleton]; unfold cc1__context_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K_R1RunC.lean ====
/-
  The context kernel's body at the LAST point of a row of points (l = 7, and not the first).

  Handed the weights' block x0, the states' block x1, the output block at anything and the accumulator at
  what the point before left (xs0), the body runs to its end with the inputs as they were, the
  accumulator holding xs0 plus the four partial sums, and the output block holding a copy of that final
  accumulator; both recorded as the pieces the stores wrote (last store first).
-/
import proofs.«165522_j54606214201412_2_alg».proof.Proof.K_R1RunB

-- membership in a rectangle of full-size extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The output block's and the accumulator's stores at a last point, as pieces, with the body's run. -/
noncomputable def kernelRun1_C (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512 .f32) (x1 : Vec F S8x512x512 .f32) (xs0 : Vec F S8x512 .f32) :
    Σ' (L2 : List (View.Piece (Elt F) S8x512 .f32)), { LS0 : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨?_, ?_, fun E K => ?run⟩
  case run =>
    simp only [cc1__context_kernel_eq_skeleton]; unfold cc1__context_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K_R1Body.lean ====
/-
  The context kernel's region, part two: what the accumulator and the output block hold after every
  point, the region's proof data, and the body's obligation at every point.

  After point t the accumulator holds: at a first point of a row (t % 8 = 0) what the body leaves when
  it starts from anything (it clears first); at any other point what the body leaves when it starts
  from what point t - 1 left.  The output block's staging buffer holds a copy of the accumulator after
  a last point (t % 8 = 7) and is not touched, nor written back, at the others.  This is a recursion on
  the point number; the three cases are selected by the closed forms of the branch conditions.
-/
import proofs.«165522_j54606214201412_2_alg».proof.Proof.K_R1RunC

-- membership in a rectangle of full-size extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back as functions -/

/-- The accumulator's stores at a first point cover it (each store writes the whole buffer). -/
theorem scover1_A_0 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512 .f32) (x1 : Vec F S8x512x512 .f32) (y : S8x512.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S8x512.size (by sl_kernel_rfl) y

/-- What a first point leaves in the accumulator. -/
def sout1_A_0 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512 .f32) (x1 : Vec F S8x512x512 .f32) : Vec F S8x512 .f32 :=
  VS1_0.read (Elt F) (VS1_0.writes (Elt F) VS1_0.junk (kernelRun1_A c i arg2 harg2 arg3 harg3 arg4 harg4 arg5 harg5 hc0 hc1 x0 x1).1)

theorem scover1_B_0 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512 .f32) (x1 : Vec F S8x512x512 .f32) (xs0 : Vec F S8x512 .f32) (y : S8x512.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S8x512.size (by sl_kernel_rfl) y

/-- What a middle point leaves in the accumulator, from what the point before left (`xs0`). -/
def sout1_B_0 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512 .f32) (x1 : Vec F S8x512x512 .f32) (xs0 : Vec F S8x512 .f32) : Vec F S8x512 .f32 :=
  VS1_0.read (Elt F) (VS1_0.writes (Elt F) VS1_0.junk (kernelRun1_B c i arg2 harg2 arg3 harg3 arg4 harg4 arg5 harg5 hc0 hc1 x0 x1 xs0).1)

/-- The one store into the output block at a last point covers it. -/
theorem cover1_C_2 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512 .f32) (x1 : Vec F S8x512x512 .f32) (xs0 : Vec F S8x512 .f32) (y : S8x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x512.size (by sl_kernel_rfl) y

/-- What a last point leaves in the output block's staging buffer. -/
def out1_C_2 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512 .f32) (x1 : Vec F S8x512x512 .f32) (xs0 : Vec F S8x512 .f32) : Vec F S8x512 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512 .f32) (x1 : Vec F S8x512x512 .f32) (xs0 : Vec F S8x512 .f32) (y : S8x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S8x512.size (by sl_kernel_rfl) y

/-- What a last point leaves in the accumulator. -/
def sout1_C_0 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512 .f32) (x1 : Vec F S8x512x512 .f32) (xs0 : Vec F S8x512 .f32) : Vec F S8x512 .f32 :=
  VS1_0.read (Elt F) (VS1_0.writes (Elt F) VS1_0.junk (kernelRun1_C c i arg2 harg2 arg3 harg3 arg4 harg4 arg5 harg5 hc0 hc1 x0 x1 xs0).2.1)

/-! ## What the output block's buffer and the accumulator hold after each point -/

/-- THE ACCUMULATION: the pair (output block's staging buffer, accumulator) after the body at point `n`.  The first
    component is a placeholder nothing consults away from the last points of the rows (the window is idle there). -/
def outsAt1 (c : Dev nD) : (n : ℕ) → n < cfg1.N → Vec F S8x512 .f32 × Vec F S8x512 .f32
  | 0, hn => ((VO1_2.read (Elt F) VO1_2.junk), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        ((VO1_2.read (Elt F) VO1_2.junk), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        ((VO1_2.read (Elt F) VO1_2.junk), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first point of a row. -/
theorem outsAt1_A (c : Dev nD) (t : Fin cfg1.N) (h0 : t.val % 8 = 0) (h1 : ¬t.val % 8 = 7) :
    outsAt1 V c t.val t.isLt = ((VO1_2.read (Elt F) VO1_2.junk), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle point: over what the point before left. -/
theorem outsAt1_B (c : Dev nD) (t : Fin cfg1.N) (h0 : ¬t.val % 8 = 0) (h1 : ¬t.val % 8 = 7) :
    outsAt1 V c t.val t.isLt = ((VO1_2.read (Elt F) VO1_2.junk), sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point of a row: over what the point before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class invariant (the accumulator at anything); afterwards the same
    with the accumulator at what the point before left. -/
def PhiS1 (c : Dev nD) : (n : ℕ) → n ≤ cfg1.N → sProp 𝕄
  | 0, _ => Pipeline.ΦA spec1 c
  | n + 1, hn => iprop(scoped1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(scoped1 c (owns (c : Thread nD τ) scM1_0 fullShare ((outsAt1 V c (n - 1) (by omega)).2)) ∗ (∃ r, prngReg c r)) := by
  cases n with
  | zero => exact absurd rfl hz
  | succ n => rfl

/-! ## The region's proof data -/

/-- The arrays as the region finds them; after the body at point `t` each input's buffer at its block, the output
    block's buffer and the accumulator at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the closed forms say which case the point is in; the
    invariant hands the body the accumulator at what the point before left (at anything before the first point) and
    takes it back at this point's contents, the other scoped buffers and the generator register passing through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · by_cases h1 : t.val % 8 = 7
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold scoped1
        iintro ⟨⟨⟨Ha, Hb, Hc, Hd, He, Hf, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc Hd He Hf HS0 Hg]
        · isplitl [Ha Hb Hc Hd He Hf HS0]
          · isplitl [Ha]; · iexact Ha
            isplitl [Hb]; · iexact Hb
            isplitl [Hc]; · iexact Hc
            isplitl [Hd]; · iexact Hd
            isplitl [He]; · iexact He
            isplitl [Hf]; · iexact Hf
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        unfold scoped1
        iintro ⟨⟨⟨Ha, Hb, Hc, Hd, He, Hf, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Ha Hb Hc Hd He Hf HS0 Hg]
        · isplitl [Ha Hb Hc Hd He Hf HS0]
          · isplitl [Ha]; · iexact Ha
            isplitl [Hb]; · iexact Hb
            isplitl [Hc]; · iexact Hc
            isplitl [Hd]; · iexact Hd
            isplitl [He]; · iexact He
            isplitl [Hf]; · iexact Hf
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      unfold scoped1
      iintro ⟨⟨⟨Ha, Hb, Hc, Hd, He, Hf, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      unfold scoped1
      iintro ⟨⟨⟨Ha, Hb, Hc, Hd, He, Hf, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨Ha, Hb, Hc, Hd, He, Hf, HS0⟩, Hg⟩
  isplitl [Ha Hb Hc Hd He Hf HS0]
  · isplitl [Ha]; · iexact Ha
    isplitl [Hb]; · iexact Hb
    isplitl [Hc]; · iexact Hc
    isplitl [Hd]; · iexact Hd
    isplitl [He]; · iexact He
    isplitl [Hf]; · iexact Hf
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.K_Run.lean ====
/-
  The whole program's run: @main is a stretch of host operations, the scores region, a second stretch
  (the softmax, the mask and the renormalisation), and the context region.

  The contents of every buffer that outlives a region are followed from the launch to the return as a
  fold through these four items: a stretch of host operations applies its operations; a region leaves
  each of its arrays at what its write-backs fold to and every other buffer as it found it.  Each region
  is entered from "every such buffer at the boundary's contents, the generator register at some state,
  nothing owed" and left in the same form at the next boundary.  The run's conclusion is that every
  weakly fair execution ends with every such buffer at the last boundary's contents; the frame (no
  argument array changes) and the two results are read off that.
-/
import proofs.«165522_j54606214201412_2_alg».proof.Proof.K_R0Body
import proofs.«165522_j54606214201412_2_alg».proof.Proof.K_R1Body
import proofs.«165522_j54606214201412_2_alg».proof.Proof.Gen.Kernel.Regions
import Idealize.ShloMosaic.Lib.Pipeline.RegionsLoop
import Idealize.ShloMosaic.Lib.Pipeline.FrameSuffix

-- membership in a rectangle of full-size extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first stretch of host operations (the scores region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the scores region's exit: its arrays at what the region leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (the context region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the context region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that no host operation writes and that is no array of either region reaches the end as launched. -/
theorem W4_kept (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    W4 m c (Proc.devRef .tc r) = m ((c : Thread nD τ).loc r) :=
  (W4_of_ne m c r ha1).trans <| (StableHlo.after_of_writes_sub hostOps1 _ hostOps1_writes h1).trans <|
    (W2_of_ne m c r ha0).trans <| (StableHlo.after_of_writes_sub hostOps0 _ hostOps0_writes h0).trans rfl

/-! ## The proof data family and the thread state -/

/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The scores region: entered from every buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The context region: entered from every buffer at `W3`, left at `W4`; the accumulator goes into the region's
    invariant at anything and comes back at anything. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
          ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (hin1 (V3 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the four segments. -/
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, and
    every final state has every buffer that outlives the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched — no host operation writes an argument and no region's array
    is one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide))⟩)
    (run_all m ρ)

end Cert.Kernel.Hand

end
-- ==== Proof.KI_R0Body.lean ====
import proofs.«165522_j54606214201412_2_alg».proof.Proof.Gen.KernelIdeal.Launch
import proofs.«165522_j54606214201412_2_alg».proof.Proof.Gen.KernelIdeal.Skeleton
import proofs.«165522_j54606214201412_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The scores kernel's body, at every grid point

The first kernel region walks 16 grid points along the sequence axis. At point `t` its body reads three
inputs — the block of 256 sequence rows of the encoder features, the whole decoder projection, the whole
attention vector — and writes the block of 256 scores in two halves of 128 columns. This module states what
the body leaves in the output's staging buffer as a function of the three input blocks, proves the body's
separation-logic triple, and packages both as the pipeline's proof data and body obligation. Nothing here
depends on the float model. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the
    pipeline does not fetch, the block index has not moved, and the body leaves the block in place. Window 0
    (the encoder features' block of rows), -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- window 1 (the whole decoder projection, fetched once), -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- and window 2 (the whole attention vector, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole decoder projection. -/
abbrev r0_dec : Rect S16x512 := Rect.unit (s := S16x512) ![0, 0] S16x512.size inb_S16x512_S16x512_0_0
/-- The whole attention vector. -/
abbrev r0_vec : Rect S1x512 := Rect.unit (s := S1x512) ![0, 0] S1x512.size inb_S1x512_S1x512_0_0
/-- Rows 0..127 and rows 128..255 of the features' block. -/
abbrev r0_inLo : Rect S16x256x512 := Rect.unit (s := S16x256x512) (k0_off1 0#32) S16x128x512.size (k0_off1_inb 0)
abbrev r0_inHi : Rect S16x256x512 := Rect.unit (s := S16x256x512) (k0_off1 1#32) S16x128x512.size (k0_off1_inb 1)
/-- Columns 0..127 and columns 128..255 of the scores' block. -/
abbrev r0_outLo : Rect S16x256 := Rect.unit (s := S16x256) (k0_off2 0#32) S16x128.size (k0_off2_inb 0)
abbrev r0_outHi : Rect S16x256 := Rect.unit (s := S16x256) (k0_off2 1#32) S16x128.size (k0_off2_inb 1)

/-! ## What the body leaves in the output window's buffer -/

/-- The scores' staging buffer after the body, from the three input blocks `x1` (decoder projection), `x2`
    (attention vector), `x0` (features): its two stores as pieces, the last first. Each half's payload is the
    lane-sum of `tanh (features + projection) · vector` over that half's rows. -/
def out0_3 (x1 : Vec F S16x512 .f32) (x2 : Vec F S1x512 .f32) (x0 : Vec F S16x256x512 .f32) : Vec F S16x256 .f32 :=
  View.canon [⟨r0_outHi, k0_pay4 (View.ld x1 r0_dec) (View.ld x2 r0_vec) (View.ld x0 r0_inHi)⟩,
              ⟨r0_outLo, k0_pay3 (View.ld x1 r0_dec) (View.ld x2 r0_vec) (View.ld x0 r0_inLo)⟩]

/-- The two halves tile the block's columns, so they cover it. -/
theorem cover0_3 (p1 p0 : Vec F S16x128 .f32) (y : S16x256.Idx) :
    ∃ pc ∈ ([⟨r0_outHi, p1⟩, ⟨r0_outLo, p0⟩] : List (View.Piece (Elt F) S16x256 .f32)), y ∈ pc.1.set :=
  View.cover_of_tiled [⟨r0_outHi, p1⟩, ⟨r0_outLo, p0⟩] S16x128.size (by rfl) y

/-! ## The body's triple -/

set_option maxHeartbeats 1000000 in
/-- The kernel body on whole staging memrefs, the three inputs' at read contents `x0`, `x1`, `x2` and the
    output's at anything, runs to the continuation holding the inputs' as they were and the output's at
    `out0_3` of the inputs. The body's two loads of the output buffer read values it never uses. -/
theorem sound_kernel0 (c : Dev nD) (E : Set ℕ) (i : grid0.Coords)
    (arg1 : Memref sig .tc .vmem S16x256x512 .f32) (harg1 : arg1.IsWhole)
    (arg2 : Memref sig .tc .vmem S16x512 .f32) (harg2 : arg2.IsWhole)
    (arg3 : Memref sig .tc .vmem S1x512 .f32) (harg3 : arg3.IsWhole)
    (arg4 : Memref sig .tc .vmem S16x256 .f32) (harg4 : arg4.IsWhole)
    (x0 : Vec F S16x256x512 .f32) (x1 : Vec F S16x512 .f32) (x2 : Vec F S1x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x1 x2 x0)) -∗ K ⟨⟩))
      ⊢ wp frame (wpE (defs₀ (F := F)) Variants.none c none) E (cc0__scores_kernel i arg1 harg1 arg2 harg2 arg3 harg3 arg4 harg4) K := by
  simp only [cc0__scores_kernel_eq_skeleton]; unfold cc0__scores_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _ _)

/-! ## The pipeline's proof data -/

/-- The proof data of the scores pipeline on core `c`: the arrays as the region finds them; after the body at
    point `t` each input's buffer still at its block and the output's at `out0_3` of the input blocks; the
    invariant is the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 1 t) (iblk0 V c 2 t) (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 1 t) (iblk0 V c 2 t) (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debts, and each window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging buffers hold their blocks, so the body's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI_R1Base.lean ====
/-
  The context kernel's region, part one: what its runs are stated over.

  The region walks a grid of 2 × 8 points (bi, l), point number t = 8·bi + l.  At a point the body is
  handed the block [8, 512] of the attention weights at (bi, l), the block [8, 512, 512] of the encoder
  states at (bi, l, 0), the output block [8, 512] at (bi, 0) and an accumulator of the same shape that
  it keeps between points.  At l = 0 it clears the accumulator; at every point it adds to it, one after
  the other, the four partial sums over 128 consecutive positions of weight · state; at l = 7 it copies
  the accumulator into the output block, which is written back at exactly those points.  So a point is
  in one of three cases — first of a row of points (l = 0), last (l = 7), or in between — decided here
  once over the sixteen points as t % 8 = 0 and t % 8 = 7.
-/
import proofs.«165522_j54606214201412_2_alg».proof.Proof.Gen.KernelIdeal.Launch
import proofs.«165522_j54606214201412_2_alg».proof.Proof.Gen.KernelIdeal.Skeleton
import proofs.«165522_j54606214201412_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full-size extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weights' staging buffer holds the weights' block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the encoder states' block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "This is the first point of its row" (l = 0), as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last point of its row" (l = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point of a row nothing is stored into the output block and it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point of a row the output block is stored. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S8x512 .f32 := (Memref.whole cc1_stg2_0 : Memref sig .tc .vmem S8x512 .f32).view
abbrev ms1_0 (t : Fin cfg1.N) : Memref sig .tc .vmem S8x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S8x512 .f32 := Memref.whole cc1_scratch0
abbrev VS1_0 : View sig .tc .vmem S8x512 .f32 := scM1_0.view

/-! ## The region invariant, opened -/

/-- The core's scoped buffers no window of this region stages, the accumulator apart: the six staging buffers of
    the scores kernel, each whole at some contents — untouched by this region — beside `S`, what is said of the
    accumulator. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The class invariant is those buffers, the accumulator at some contents, and the generator register at some state. -/
theorem PhiA1_eq (c : Dev nD) :
    (Pipeline.ΦA spec1 c : sProp 𝕄)
      = iprop(scoped1 c (iprop(∃ d, owns (c : Thread nD τ) scM1_0 fullShare d)) ∗ (∃ r, prngReg c r)) := by
  unfold Pipeline.ΦA scoped1; rw [scopedRest1_eq]; simp only [scM1_0, owns_whole]; try rfl

end Cert.KernelIdeal.Hand

end
-- ==== Proof.KI_R1RunA.lean ====
/-
  The context kernel's body at the FIRST point of a row of points (l = 0, and not the last).

  Handed the weights' block x0, the states' block x1, the output block at contents it leaves untouched,
  and the accumulator at anything, the body runs to its end with the inputs and the output block as they
  were and the accumulator holding what its stores left: it was cleared and then received the four
  partial sums.  The stores are recorded as a list of pieces (last store first); which pieces is found by
  running the body, and read back as a function in the next module.
-/
import proofs.«165522_j54606214201412_2_alg».proof.Proof.KI_R1Base

-- membership in a rectangle of full-size extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's stores at a first point, as pieces, with the body's run to the continuation. -/
noncomputable def kernelRun1_A (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512 .f32) (x1 : Vec F S8x512x512 .f32) :
    { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨?_, fun xi2 E K => ?run⟩
  case run =>
    simp only [cc1__context_kernel_eq_skeleton]; unfold cc1__context_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI_R1RunB.lean ====
/-
  The context kernel's body at a point that is neither first nor last in its row (0 < l < 7).

  Handed the weights' block x0, the states' block x1, the output block at contents it leaves untouched and
  the accumulator at what the point before left (xs0), the body runs to its end with the inputs and the
  output block as they were and the accumulator holding xs0 plus the four partial sums, recorded as the
  pieces its stores wrote (last store first).
-/
import proofs.«165522_j54606214201412_2_alg».proof.Proof.KI_R1RunA

-- membership in a rectangle of full-size extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's stores at a middle point, as pieces, with the body's run to the continuation. -/
noncomputable def kernelRun1_B (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512 .f32) (x1 : Vec F S8x512x512 .f32) (xs0 : Vec F S8x512 .f32) :
    { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨?_, fun xi2 E K => ?run⟩
  case run =>
    simp only [cc1__context_kernel_eq_skeleton]; unfold cc1__context_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI_R1RunC.lean ====
/-
  The context kernel's body at the LAST point of a row of points (l = 7, and not the first).

  Handed the weights' block x0, the states' block x1, the output block at anything and the accumulator at
  what the point before left (xs0), the body runs to its end with the inputs as they were, the
  accumulator holding xs0 plus the four partial sums, and the output block holding a copy of that final
  accumulator; both recorded as the pieces the stores wrote (last store first).
-/
import proofs.«165522_j54606214201412_2_alg».proof.Proof.KI_R1RunB

-- membership in a rectangle of full-size extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The output block's and the accumulator's stores at a last point, as pieces, with the body's run. -/
noncomputable def kernelRun1_C (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512 .f32) (x1 : Vec F S8x512x512 .f32) (xs0 : Vec F S8x512 .f32) :
    Σ' (L2 : List (View.Piece (Elt F) S8x512 .f32)), { LS0 : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__context_kernel i arg2 harg2 arg3 harg3 arg4 harg4 arg5 harg5) K } := by
  refine ⟨?_, ?_, fun E K => ?run⟩
  case run =>
    simp only [cc1__context_kernel_eq_skeleton]; unfold cc1__context_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI_R1Body.lean ====
/-
  The context kernel's region, part two: what the accumulator and the output block hold after every
  point, the region's proof data, and the body's obligation at every point.

  After point t the accumulator holds: at a first point of a row (t % 8 = 0) what the body leaves when
  it starts from anything (it clears first); at any other point what the body leaves when it starts
  from what point t - 1 left.  The output block's staging buffer holds a copy of the accumulator after
  a last point (t % 8 = 7) and is not touched, nor written back, at the others.  This is a recursion on
  the point number; the three cases are selected by the closed forms of the branch conditions.
-/
import proofs.«165522_j54606214201412_2_alg».proof.Proof.KI_R1RunC

-- membership in a rectangle of full-size extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back as functions -/

/-- The accumulator's stores at a first point cover it (each store writes the whole buffer). -/
theorem scover1_A_0 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512 .f32) (x1 : Vec F S8x512x512 .f32) (y : S8x512.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S8x512.size (by sl_kernel_rfl) y

/-- What a first point leaves in the accumulator. -/
def sout1_A_0 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512 .f32) (x1 : Vec F S8x512x512 .f32) : Vec F S8x512 .f32 :=
  VS1_0.read (Elt F) (VS1_0.writes (Elt F) VS1_0.junk (kernelRun1_A c i arg2 harg2 arg3 harg3 arg4 harg4 arg5 harg5 hc0 hc1 x0 x1).1)

theorem scover1_B_0 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512 .f32) (x1 : Vec F S8x512x512 .f32) (xs0 : Vec F S8x512 .f32) (y : S8x512.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S8x512.size (by sl_kernel_rfl) y

/-- What a middle point leaves in the accumulator, from what the point before left (`xs0`). -/
def sout1_B_0 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512 .f32) (x1 : Vec F S8x512x512 .f32) (xs0 : Vec F S8x512 .f32) : Vec F S8x512 .f32 :=
  VS1_0.read (Elt F) (VS1_0.writes (Elt F) VS1_0.junk (kernelRun1_B c i arg2 harg2 arg3 harg3 arg4 harg4 arg5 harg5 hc0 hc1 x0 x1 xs0).1)

/-- The one store into the output block at a last point covers it. -/
theorem cover1_C_2 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512 .f32) (x1 : Vec F S8x512x512 .f32) (xs0 : Vec F S8x512 .f32) (y : S8x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x512.size (by sl_kernel_rfl) y

/-- What a last point leaves in the output block's staging buffer. -/
def out1_C_2 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512 .f32) (x1 : Vec F S8x512x512 .f32) (xs0 : Vec F S8x512 .f32) : Vec F S8x512 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512 .f32) (x1 : Vec F S8x512x512 .f32) (xs0 : Vec F S8x512 .f32) (y : S8x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S8x512.size (by sl_kernel_rfl) y

/-- What a last point leaves in the accumulator. -/
def sout1_C_0 (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512 .f32) (x1 : Vec F S8x512x512 .f32) (xs0 : Vec F S8x512 .f32) : Vec F S8x512 .f32 :=
  VS1_0.read (Elt F) (VS1_0.writes (Elt F) VS1_0.junk (kernelRun1_C c i arg2 harg2 arg3 harg3 arg4 harg4 arg5 harg5 hc0 hc1 x0 x1 xs0).2.1)

/-! ## What the output block's buffer and the accumulator hold after each point -/

/-- THE ACCUMULATION: the pair (output block's staging buffer, accumulator) after the body at point `n`.  The first
    component is a placeholder nothing consults away from the last points of the rows (the window is idle there). -/
def outsAt1 (c : Dev nD) : (n : ℕ) → n < cfg1.N → Vec F S8x512 .f32 × Vec F S8x512 .f32
  | 0, hn => ((VO1_2.read (Elt F) VO1_2.junk), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        ((VO1_2.read (Elt F) VO1_2.junk), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        ((VO1_2.read (Elt F) VO1_2.junk), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first point of a row. -/
theorem outsAt1_A (c : Dev nD) (t : Fin cfg1.N) (h0 : t.val % 8 = 0) (h1 : ¬t.val % 8 = 7) :
    outsAt1 V c t.val t.isLt = ((VO1_2.read (Elt F) VO1_2.junk), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle point: over what the point before left. -/
theorem outsAt1_B (c : Dev nD) (t : Fin cfg1.N) (h0 : ¬t.val % 8 = 0) (h1 : ¬t.val % 8 = 7) :
    outsAt1 V c t.val t.isLt = ((VO1_2.read (Elt F) VO1_2.junk), sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point of a row: over what the point before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the class invariant (the accumulator at anything); afterwards the same
    with the accumulator at what the point before left. -/
def PhiS1 (c : Dev nD) : (n : ℕ) → n ≤ cfg1.N → sProp 𝕄
  | 0, _ => Pipeline.ΦA spec1 c
  | n + 1, hn => iprop(scoped1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(scoped1 c (owns (c : Thread nD τ) scM1_0 fullShare ((outsAt1 V c (n - 1) (by omega)).2)) ∗ (∃ r, prngReg c r)) := by
  cases n with
  | zero => exact absurd rfl hz
  | succ n => rfl

/-! ## The region's proof data -/

/-- The arrays as the region finds them; after the body at point `t` each input's buffer at its block, the output
    block's buffer and the accumulator at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the closed forms say which case the point is in; the
    invariant hands the body the accumulator at what the point before left (at anything before the first point) and
    takes it back at this point's contents, the other scoped buffers and the generator register passing through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · by_cases h1 : t.val % 8 = 7
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        unfold scoped1
        iintro ⟨⟨⟨Ha, Hb, Hc, Hd, He, Hf, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha Hb Hc Hd He Hf HS0 Hg]
        · isplitl [Ha Hb Hc Hd He Hf HS0]
          · isplitl [Ha]; · iexact Ha
            isplitl [Hb]; · iexact Hb
            isplitl [Hc]; · iexact Hc
            isplitl [Hd]; · iexact Hd
            isplitl [He]; · iexact He
            isplitl [Hf]; · iexact Hf
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        unfold scoped1
        iintro ⟨⟨⟨Ha, Hb, Hc, Hd, He, Hf, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Ha Hb Hc Hd He Hf HS0 Hg]
        · isplitl [Ha Hb Hc Hd He Hf HS0]
          · isplitl [Ha]; · iexact Ha
            isplitl [Hb]; · iexact Hb
            isplitl [Hc]; · iexact Hc
            isplitl [Hd]; · iexact Hd
            isplitl [He]; · iexact He
            isplitl [Hf]; · iexact Hf
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      unfold scoped1
      iintro ⟨⟨⟨Ha, Hb, Hc, Hd, He, Hf, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      unfold scoped1
      iintro ⟨⟨⟨Ha, Hb, Hc, Hd, He, Hf, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨Ha, Hb, Hc, Hd, He, Hf, HS0⟩, Hg⟩
  isplitl [Ha Hb Hc Hd He Hf HS0]
  · isplitl [Ha]; · iexact Ha
    isplitl [Hb]; · iexact Hb
    isplitl [Hc]; · iexact Hc
    isplitl [Hd]; · iexact Hd
    isplitl [He]; · iexact He
    isplitl [Hf]; · iexact Hf
    iexists _; iexact HS0
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KI_Run.lean ====
/-
  The whole program's run: @main is a stretch of host operations, the scores region, a second stretch
  (the softmax, the mask and the renormalisation), and the context region.

  The contents of every buffer that outlives a region are followed from the launch to the return as a
  fold through these four items: a stretch of host operations applies its operations; a region leaves
  each of its arrays at what its write-backs fold to and every other buffer as it found it.  Each region
  is entered from "every such buffer at the boundary's contents, the generator register at some state,
  nothing owed" and left in the same form at the next boundary.  The run's conclusion is that every
  weakly fair execution ends with every such buffer at the last boundary's contents; the frame (no
  argument array changes) and the two results are read off that.
-/
import proofs.«165522_j54606214201412_2_alg».proof.Proof.KI_R0Body
import proofs.«165522_j54606214201412_2_alg».proof.Proof.KI_R1Body
import proofs.«165522_j54606214201412_2_alg».proof.Proof.Gen.KernelIdeal.Regions
import Idealize.ShloMosaic.Lib.Pipeline.RegionsLoop
import Idealize.ShloMosaic.Lib.Pipeline.FrameSuffix

-- membership in a rectangle of full-size extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first stretch of host operations (the scores region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the scores region's exit: its arrays at what the region leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (the context region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the context region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that no host operation writes and that is no array of either region reaches the end as launched. -/
theorem W4_kept (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    W4 m c (Proc.devRef .tc r) = m ((c : Thread nD τ).loc r) :=
  (W4_of_ne m c r ha1).trans <| (StableHlo.after_of_writes_sub hostOps1 _ hostOps1_writes h1).trans <|
    (W2_of_ne m c r ha0).trans <| (StableHlo.after_of_writes_sub hostOps0 _ hostOps0_writes h0).trans rfl

/-! ## The proof data family and the thread state -/

/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The scores region: entered from every buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The context region: entered from every buffer at `W3`, left at `W4`; the accumulator goes into the region's
    invariant at anything and comes back at anything. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
          ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (hin1 (V3 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the four segments. -/
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, and
    every final state has every buffer that outlives the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched — no host operation writes an argument and no region's array
    is one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide))⟩)
    (run_all m ρ)

end Cert.KernelIdeal.Hand

end
-- ==== Proof.RefRun.lean ====
/-
  The reference's run and its read-at-an-index lemmas, brought into scope for the modules that compare
  the reference's stages with the kernel's.
-/
import proofs.«165522_j54606214201412_2_alg».proof.Proof.Gen.ReferenceIdeal.Run
import proofs.«165522_j54606214201412_2_alg».proof.Proof.Gen.ReferenceIdeal.Read
-- ==== Proof.RefTail.lean ====
/-
  The reference's softmax, mask and renormalisation, as one function of the scores and the mask.

  From the score array e [16, 4096] and the mask m [16, 4096] the reference forms, row by row: the row maximum
  (joined with -∞), the exponentials of e minus that maximum, their row sum, the quotient (the softmax), its
  product with the mask, the row sum of that product, and the quotient by it (the renormalised weights). Every
  step is one host operation applied to whole arrays; `tail` is their composition, and the reference's weight
  array is `tail` applied to its score array — by definition, nothing about the scores themselves being used.
-/
import proofs.«165522_j54606214201412_2_alg».proof.Proof.RefRun

noncomputable section

namespace Cert.ReferenceIdeal.RefValue

open Cert.ReferenceIdeal Cert.ReferenceIdeal.Read
open Cert.ReferenceIdeal.Gen Idealize.ShloMosaic Idealize.ShloMosaic.TcCoe Idealize.SL.Sem Idealize.ShloMosaic.StableHlo

/-- The row maximum of the scores joined with -∞, spread back over the row: what is subtracted before the
    exponential. -/
def tailShift (e : (⟨S16x4096, .f32⟩ : BufTy).Contents (Elt Ideal)) : (⟨S16x4096, .f32⟩ : BufTy).Contents (Elt Ideal) :=
  broadcastInDim S16x4096 ![0, 1] bcast_S16x1_S16x4096_0_1
    (broadcastInDim S16x1 ![0] bcast_S16_S16x1_0
      (maximumf (F := Ideal) (φ := .f32) (broadcastInDim S16 ![] bcast_S_S16 (constant (F := Ideal) S_ .f32 0xFF800000#32))
        (Host.reduce (FloatOps.maximumf (F := Ideal) (φ := .f32)) e (constant (F := Ideal) S_ .f32 0xFF800000#32) reducesTo_S16x4096_S16_d1 h_S_)))

/-- The exponentials of the shifted scores. -/
def tailExp (e : (⟨S16x4096, .f32⟩ : BufTy).Contents (Elt Ideal)) : (⟨S16x4096, .f32⟩ : BufTy).Contents (Elt Ideal) :=
  Host.exp (F := Ideal) (φ := .f32) (subf (F := Ideal) (φ := .f32) e (tailShift e))

/-- An array [16, 4096] divided by its own row sums (the sum taken from the zero word). -/
def rowNormalise (y : (⟨S16x4096, .f32⟩ : BufTy).Contents (Elt Ideal)) : (⟨S16x4096, .f32⟩ : BufTy).Contents (Elt Ideal) :=
  Host.divf (F := Ideal) (φ := .f32) y
    (broadcastInDim S16x4096 ![0, 1] bcast_S16x1_S16x4096_0_1
      (broadcastInDim S16x1 ![0] bcast_S16_S16x1_0
        (Host.reduceAdd (F := Ideal) (φ := .f32) y (constant (F := Ideal) S_ .f32 0x00000000#32) reducesTo_S16x4096_S16_d1 h_S_)))

/-- The softmax / mask / renormalise chain: the softmax of the scores along each row, times the mask, divided by
    the row sums of that product. -/
def tail (e x4 : (⟨S16x4096, .f32⟩ : BufTy).Contents (Elt Ideal)) : (⟨S16x4096, .f32⟩ : BufTy).Contents (Elt Ideal) :=
  rowNormalise (mulf (F := Ideal) (φ := .f32) (rowNormalise (tailExp e)) x4)

/-- The reference's attention weights are `tail` of its scores and the mask: the operations between the two are
    exactly the ones `tail` composes. -/
theorem attn_eq_tail (x0 : (⟨S16x4096x1x512, .f32⟩ : BufTy).Contents (Elt Ideal)) (x1 x2 : (⟨S16x512, .f32⟩ : BufTy).Contents (Elt Ideal))
    (x4 : (⟨S16x4096, .f32⟩ : BufTy).Contents (Elt Ideal)) (x5 : (⟨S512, .f32⟩ : BufTy).Contents (Elt Ideal))
    (x6 : (⟨S512x1024, .f32⟩ : BufTy).Contents (Elt Ideal)) (x7 : (⟨S512, .f32⟩ : BufTy).Contents (Elt Ideal)) :
    val_main_v29 (F := Ideal) x0 x1 x2 x4 x5 x6 x7 = tail (val_main_v13 (F := Ideal) x0 x1 x2 x5 x6 x7) x4 := by
  unfold val_main_v29 val_main_v28 val_main_v27 val_main_v26 val_main_v25 val_main_v24 val_main_v23 val_main_v22
    val_main_v21 val_main_v20 val_main_v19 val_main_v18 val_main_v17 val_main_v16 val_main_v15 val_main_v14
    val_main_cst_0 val_main_cst_1 val_main_cst_2 val_main_cst_3
  generalize val_main_v13 (F := Ideal) x0 x1 x2 x5 x6 x7 = e
  rfl

end Cert.ReferenceIdeal.RefValue

end
-- ==== Proof.Spec.lean ====
/-
  The two results as functions of the argument arrays, index by index, on the extended reals.

  Scores: for batch row b and encoder position l,
      e(b, l) = ∑ a, tanh (x(b, l, 0, a) + d(b, a)) · v(a)
  where x is the encoder features, d the decoder projection (one row per batch entry) and v the
  scoring vector.  Context: for batch row b and feature a,
      ctx(b, a) = ∑ l, w(b, l) · s(b, l, 0, a)
  where w are the attention weights and s the encoder states.  Both sums are finite sums in the
  additive commutative monoid of the extended reals, so any grouping or order of the terms gives the
  same value; no finiteness of the entries is needed.
-/
import Idealize.ShloMosaic.PureOps.Ideal
import Idealize.ShloMosaic.Lib.ValueIdx

noncomputable section

open scoped BigOperators

namespace Cert.Spec

open Idealize.ShloMosaic Idealize.ShloMosaic.ValueIdx

/-- The additive-attention score of every (batch row, position). -/
def scores (x : (⟨4, ![16, 4096, 1, 512]⟩ : Shape).Idx → EReal) (d : (⟨2, ![16, 512]⟩ : Shape).Idx → EReal)
    (v : (⟨1, ![512]⟩ : Shape).Idx → EReal) : (⟨2, ![16, 4096]⟩ : Shape).Idx → EReal :=
  fun i => ∑ a : Fin 512, Ideal.tanh (x (ix4 (i 0) (i 1) (0 : Fin 1) a) + d (ix2 (i 0) a)) * v (ix1 a)

/-- The attention-weighted sum of the encoder states, per (batch row, feature). -/
def context (w : (⟨2, ![16, 4096]⟩ : Shape).Idx → EReal) (s : (⟨4, ![16, 4096, 1, 512]⟩ : Shape).Idx → EReal) :
    (⟨2, ![16, 512]⟩ : Shape).Idx → EReal :=
  fun i => ∑ l : Fin 4096, w (ix2 (i 0) l) * s (ix4 (i 0) l (0 : Fin 1) (i 1))

end Cert.Spec

end
-- ==== Proof.LibPlanes.lean ====
/-
  A sum taken over the LAST TWO axes of a rank-4 array, read at a pair.

  For an array `x` of shape `[a, b, c, d]`, the reduction by addition over axes 2 and 3 is the `[a, b]` array whose
  entry `(p, q)` collects every `x (p, q, l, k)`: the indices that drop to `(p, q)` are exactly the quadruples with
  first coordinates `p, q`, and they are in bijection with the pairs `(l, k)`. So the entry is the double sum over
  `l` and over `k`, in any additive commutative monoid and for all extents; at the extended reals this is what the
  host's `stablehlo.reduce` with an add body over those two axes (a `jnp.sum` or `jnp.mean` over `axis=(2, 3)`)
  leaves, the initial value added in front, whatever infinities the terms hold.
-/
import Idealize.ShloMosaic.Lib.ValueIdx
import Idealize.ShloMosaic.PureOps.Reduce
import Idealize.ShloMosaic.PureOps.Ideal.Laws

noncomputable section

namespace Cert.LibPlanes

open Idealize.ShloMosaic Idealize.ShloMosaic.ValueIdx

/-- The entry `(p, q, l, k)` drops, on the two last axes, to `(p, q)`. -/
theorem drop_ix4 {a b c d : ℕ} (h : (⟨4, ![a, b, c, d]⟩ : Shape).ReducesTo [2, 3] ⟨2, ![a, b]⟩)
    (p : Fin a) (q : Fin b) (l : Fin c) (k : Fin d) : h.drop (ix4 p q l k) = ix2 p q := by
  funext e
  match e with
  | ⟨0, _⟩ => exact Fin.ext rfl
  | ⟨1, _⟩ => exact Fin.ext rfl

/-- An entry that drops to `j` has `j`'s two coordinates first. -/
theorem eq_ix4_of_drop {a b c d : ℕ} (h : (⟨4, ![a, b, c, d]⟩ : Shape).ReducesTo [2, 3] ⟨2, ![a, b]⟩)
    (i : (⟨4, ![a, b, c, d]⟩ : Shape).Idx) (j : (⟨2, ![a, b]⟩ : Shape).Idx) (hi : h.drop i = j) :
    i = ix4 (j 0) (j 1) (i 2) (i 3) := by
  have h0 : i 0 = j 0 := Fin.ext (by rw [← hi]; rfl)
  have h1 : i 1 = j 1 := Fin.ext (by rw [← hi]; rfl)
  rw [← h0, ← h1]; exact eq_ix4 i

/-- The sum of the entries that drop to `j` is the double sum over the plane at `j`. -/
theorem sum_filter_drop_planes {M : Type*} [AddCommMonoid M] {a b c d : ℕ}
    (h : (⟨4, ![a, b, c, d]⟩ : Shape).ReducesTo [2, 3] ⟨2, ![a, b]⟩)
    (x : (⟨4, ![a, b, c, d]⟩ : Shape).Idx → M) (j : (⟨2, ![a, b]⟩ : Shape).Idx) :
    ∑ i ∈ Finset.univ.filter (fun i => h.drop i = j), x i = ∑ l : Fin c, ∑ k : Fin d, x (ix4 (j 0) (j 1) l k) := by
  rw [← Fintype.sum_prod_type' (f := fun (l : Fin c) (k : Fin d) => x (ix4 (j 0) (j 1) l k))]
  refine Finset.sum_bij' (fun i _ => ((i 2, i 3) : Fin c × Fin d)) (fun r _ => ix4 (j 0) (j 1) r.1 r.2) ?_ ?_ ?_ ?_ ?_
  · intro i _; exact Finset.mem_univ _
  · intro r _
    refine Finset.mem_filter.2 ⟨Finset.mem_univ _, ?_⟩
    exact (drop_ix4 h (j 0) (j 1) r.1 r.2).trans (eq_ix2 j).symm
  · intro i hi
    exact (eq_ix4_of_drop h i j (Finset.mem_filter.1 hi).2).symm
  · intro r _; rfl
  · intro i hi
    exact congrArg x (eq_ix4_of_drop h i j (Finset.mem_filter.1 hi).2)

/-- The host's float sum over the two last axes of `[a, b, c, d]`, read at `(p, q)` at the extended reals: the
    initial value plus the double sum over the plane `(p, q)`. -/
theorem hostReduceAdd_planes {a b c d : ℕ} (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  exact congrArg₂ (· + ·) rfl (sum_filter_drop_planes h x (ix2 p q))

end Cert.LibPlanes

end
-- ==== Proof.RefScores.lean ====
/-
  The reference's scores are the specification's scores.

  The reference forms, over [16, 4096, 1, 512], the product v(a) · tanh(x(b, l, 0, a) + d(b, a)) — the scoring
  vector and the decoder projection d spread over the other axes — and sums it over the two last axes, starting
  from the zero word. At (b, l) that sum is 0 plus the double sum over the one coordinate of the unit axis and
  over a; the zero word is the extended real 0, the sum over the unit axis has one term, and the product commutes,
  which leaves ∑ a, tanh(x(b, l, 0, a) + d(b, a)) · v(a). The decoder projection enters only through its entries
  d(b, a): nothing about how it is computed is used.
-/
import proofs.«165522_j54606214201412_2_alg».proof.Proof.RefRun
import proofs.«165522_j54606214201412_2_alg».proof.Proof.Spec
import proofs.«165522_j54606214201412_2_alg».proof.Proof.LibPlanes

noncomputable section

open scoped BigOperators

namespace Cert.ReferenceIdeal.RefValue

open Cert.ReferenceIdeal Cert.ReferenceIdeal.Read
open Cert.ReferenceIdeal.Gen Idealize.ShloMosaic Idealize.ShloMosaic.TcCoe Idealize.SL.Sem Idealize.ShloMosaic.StableHlo
open Idealize.ShloMosaic.ValueIdx

/-- One term of the reference's score sum: at (b, l, j, a), with j the coordinate of the unit axis, the product
    array holds tanh(x(b, l, 0, a) + d(b, a)) · v(a). -/
theorem scoreTerm (x0 : (⟨S16x4096x1x512, .f32⟩ : BufTy).Contents (Elt Ideal)) (x1 x2 : (⟨S16x512, .f32⟩ : BufTy).Contents (Elt Ideal))
    (x5 : (⟨S512, .f32⟩ : BufTy).Contents (Elt Ideal)) (x6 : (⟨S512x1024, .f32⟩ : BufTy).Contents (Elt Ideal))
    (x7 : (⟨S512, .f32⟩ : BufTy).Contents (Elt Ideal)) (b : Fin 16) (l : Fin 4096) (j : Fin 1) (a : Fin 512) :
    val_main_v12 (F := Ideal) x0 x1 x2 x5 x6 x7 (ix4 b l j a)
      = Ideal.tanh (x0 (ix4 b l (0 : Fin 1) a) + val_main_v5 (F := Ideal) x1 x2 x6 x7 (ix2 b a)) * x5 (ix1 a) := by
  obtain rfl : j = 0 := Subsingleton.elim j 0
  rw [val_main_v12_apply, val_main_v11_apply, val_main_v10_apply, val_main_v9_apply, val_main_v8_apply,
    val_main_v7_apply, val_main_v6_apply]
  have e1 : idx_main_v10 (idx_main_v11 (ix4 b l (0 : Fin 1) a)) = ix1 a :=
    funext fun c => Fin.ext (by match c with | ⟨0, _⟩ => rfl)
  have e2 : idx_main_v6 (idx_main_v7 (ix4 b l (0 : Fin 1) a)) = ix2 b a :=
    funext fun c => Fin.ext (by match c with | ⟨0, _⟩ => rfl | ⟨1, _⟩ => rfl)
  rw [e1, e2]
  simp only [Ideal.mulf_def, Ideal.addf_def, Ideal.hostUnary_tanh_def]
  exact mul_comm _ _

/-- The host's sum over the two last axes of a [16, 4096, 1, 512] array from the zero word, read at (b, l): the sum
    over a of the entries (b, l, 0, a). -/
theorem sumLastPlanes (y : (⟨S16x4096x1x512, .f32⟩ : BufTy).Contents (Elt Ideal)) (b : Fin 16) (l : Fin 4096) :
    Host.reduceAdd (F := Ideal) (φ := .f32) y (val_main_cst (F := Ideal)) reducesTo_S16x4096x1x512_S16x4096_d2_3 h_S_ (ix2 b l)
      = ∑ a : Fin 512, y (ix4 b l (0 : Fin 1) a) := by
  simp only [Host.reduceAdd, Ideal.hostReduceAdd_def]
  rw [Cert.LibPlanes.hostReduceAdd_planes, val_main_cst_apply, Ideal.ofBits_def, Ideal.ofBits_zero_f32, zero_add,
    Fin.sum_univ_one]

/-- The reference's score array is the specification's, over its encoder features, its decoder projection and its
    scoring vector. -/
theorem scores_eq (x0 : (⟨S16x4096x1x512, .f32⟩ : BufTy).Contents (Elt Ideal)) (x1 x2 : (⟨S16x512, .f32⟩ : BufTy).Contents (Elt Ideal))
    (x5 : (⟨S512, .f32⟩ : BufTy).Contents (Elt Ideal)) (x6 : (⟨S512x1024, .f32⟩ : BufTy).Contents (Elt Ideal))
    (x7 : (⟨S512, .f32⟩ : BufTy).Contents (Elt Ideal)) :
    val_main_v13 (F := Ideal) x0 x1 x2 x5 x6 x7 = Cert.Spec.scores x0 (val_main_v5 (F := Ideal) x1 x2 x6 x7) x5 := by
  funext i
  obtain ⟨b, l, rfl⟩ : ∃ (b : Fin 16) (l : Fin 4096), i = ix2 b l := ⟨i 0, i 1, eq_ix2 i⟩
  unfold val_main_v13
  refine (sumLastPlanes _ b l).trans ?_
  unfold Cert.Spec.scores
  exact Finset.sum_congr rfl fun a _ => scoreTerm x0 x1 x2 x5 x6 x7 b l 0 a

end Cert.ReferenceIdeal.RefValue

end
-- ==== Proof.LibMidPlanes.lean ====
/-
  A sum taken over the TWO MIDDLE axes of a rank-4 array, read at a pair.

  For an array `x` of shape `[a, b, c, d]`, the reduction by addition over axes 1 and 2 is the `[a, d]` array whose
  entry `(p, q)` collects every `x (p, l, k, q)`: the indices that drop to `(p, q)` are exactly the quadruples with
  first coordinate `p` and last coordinate `q`, and they are in bijection with the pairs `(l, k)`. So the entry is
  the double sum over `l` and over `k`, in any additive commutative monoid and for all extents; at the extended reals
  this is what the host's `stablehlo.reduce` with an add body over those two axes (a `jnp.sum` over `axis=(1, 2)`)
  leaves, the initial value added in front, whatever infinities the terms hold.
-/
import Idealize.ShloMosaic.Lib.ValueIdx
import Idealize.ShloMosaic.PureOps.Reduce
import Idealize.ShloMosaic.PureOps.Ideal.Laws

noncomputable section

namespace Cert.LibMidPlanes

open Idealize.ShloMosaic Idealize.ShloMosaic.ValueIdx

/-- The entry `(p, l, k, q)` drops, on the two middle axes, to `(p, q)`. -/
theorem drop_ix4 {a b c d : ℕ} (h : (⟨4, ![a, b, c, d]⟩ : Shape).ReducesTo [1, 2] ⟨2, ![a, d]⟩)
    (p : Fin a) (l : Fin b) (k : Fin c) (q : Fin d) : h.drop (ix4 p l k q) = ix2 p q := by
  funext e
  match e with
  | ⟨0, _⟩ => exact Fin.ext rfl
  | ⟨1, _⟩ => exact Fin.ext rfl

/-- An entry that drops to `j` has `j`'s first coordinate first and `j`'s second coordinate last. -/
theorem eq_ix4_of_drop {a b c d : ℕ} (h : (⟨4, ![a, b, c, d]⟩ : Shape).ReducesTo [1, 2] ⟨2, ![a, d]⟩)
    (i : (⟨4, ![a, b, c, d]⟩ : Shape).Idx) (j : (⟨2, ![a, d]⟩ : Shape).Idx) (hi : h.drop i = j) :
    i = ix4 (j 0) (i 1) (i 2) (j 1) := by
  have h0 : i 0 = j 0 := Fin.ext (by rw [← hi]; rfl)
  have h3 : i 3 = j 1 := Fin.ext (by rw [← hi]; rfl)
  rw [← h0, ← h3]; exact eq_ix4 i

/-- The sum of the entries that drop to `j` is the double sum over the middle plane at `j`. -/
theorem sum_filter_drop_midPlanes {M : Type*} [AddCommMonoid M] {a b c d : ℕ}
    (h : (⟨4, ![a, b, c, d]⟩ : Shape).ReducesTo [1, 2] ⟨2, ![a, d]⟩)
    (x : (⟨4, ![a, b, c, d]⟩ : Shape).Idx → M) (j : (⟨2, ![a, d]⟩ : Shape).Idx) :
    ∑ i ∈ Finset.univ.filter (fun i => h.drop i = j), x i = ∑ l : Fin b, ∑ k : Fin c, x (ix4 (j 0) l k (j 1)) := by
  rw [← Fintype.sum_prod_type' (f := fun (l : Fin b) (k : Fin c) => x (ix4 (j 0) l k (j 1)))]
  refine Finset.sum_bij' (fun i _ => ((i 1, i 2) : Fin b × Fin c)) (fun r _ => ix4 (j 0) r.1 r.2 (j 1)) ?_ ?_ ?_ ?_ ?_
  · intro i _; exact Finset.mem_univ _
  · intro r _
    refine Finset.mem_filter.2 ⟨Finset.mem_univ _, ?_⟩
    exact (drop_ix4 h (j 0) r.1 r.2 (j 1)).trans (eq_ix2 j).symm
  · intro i hi
    exact (eq_ix4_of_drop h i j (Finset.mem_filter.1 hi).2).symm
  · intro r _; rfl
  · intro i hi
    exact congrArg x (eq_ix4_of_drop h i j (Finset.mem_filter.1 hi).2)

/-- The host's float sum over the two middle axes of `[a, b, c, d]`, read at `(p, q)` at the extended reals: the
    initial value plus the double sum over the middle plane `(p, ·, ·, q)`. -/
theorem hostReduceAdd_midPlanes {a b c d : ℕ} (h : (⟨4, ![a, b, c, d]⟩ : Shape).ReducesTo [1, 2] ⟨2, ![a, d]⟩)
    (x : (⟨4, ![a, b, c, d]⟩ : Shape).Idx → EReal) (init : EReal) (p : Fin a) (q : Fin d) :
    Ideal.hostReduceAdd h x init (ix2 p q) = init + ∑ l : Fin b, ∑ k : Fin c, x (ix4 p l k q) := by
  unfold Ideal.hostReduceAdd
  exact congrArg₂ (· + ·) rfl (sum_filter_drop_midPlanes h x (ix2 p q))

end Cert.LibMidPlanes

end
-- ==== Proof.RefContext.lean ====
/-
  The reference's context is the specification's context.

  The reference spreads its attention weights w [16, 4096] over [16, 4096, 1, 512], multiplies by the encoder
  states s, and sums over the two middle axes, starting from the zero word. At (b, a) that sum is 0 plus the double
  sum over l and over the one coordinate of the unit axis of w(b, l) · s(b, l, 0, a); the zero word is the extended
  real 0 and the sum over the unit axis has one term, which leaves ∑ l, w(b, l) · s(b, l, 0, a). The weights enter
  only through their entries w(b, l): nothing about the softmax that produced them is used.
-/
import proofs.«165522_j54606214201412_2_alg».proof.Proof.RefRun
import proofs.«165522_j54606214201412_2_alg».proof.Proof.Spec
import proofs.«165522_j54606214201412_2_alg».proof.Proof.LibMidPlanes

noncomputable section

open scoped BigOperators

namespace Cert.ReferenceIdeal.RefValue

open Cert.ReferenceIdeal Cert.ReferenceIdeal.Read
open Cert.ReferenceIdeal.Gen Idealize.ShloMosaic Idealize.ShloMosaic.TcCoe Idealize.SL.Sem Idealize.ShloMosaic.StableHlo
open Idealize.ShloMosaic.ValueIdx

/-- One term of the reference's context sum: at (b, l, j, a), with j the coordinate of the unit axis, the product
    array holds w(b, l) · s(b, l, 0, a). -/
theorem contextTerm (x0 : (⟨S16x4096x1x512, .f32⟩ : BufTy).Contents (Elt Ideal)) (x1 x2 : (⟨S16x512, .f32⟩ : BufTy).Contents (Elt Ideal))
    (x3 : (⟨S16x4096x1x512, .f32⟩ : BufTy).Contents (Elt Ideal)) (x4 : (⟨S16x4096, .f32⟩ : BufTy).Contents (Elt Ideal))
    (x5 : (⟨S512, .f32⟩ : BufTy).Contents (Elt Ideal)) (x6 : (⟨S512x1024, .f32⟩ : BufTy).Contents (Elt Ideal))
    (x7 : (⟨S512, .f32⟩ : BufTy).Contents (Elt Ideal)) (b : Fin 16) (l : Fin 4096) (j : Fin 1) (a : Fin 512) :
    val_main_v32 (F := Ideal) x0 x1 x2 x3 x4 x5 x6 x7 (ix4 b l j a)
      = val_main_v29 (F := Ideal) x0 x1 x2 x4 x5 x6 x7 (ix2 b l) * x3 (ix4 b l (0 : Fin 1) a) := by
  obtain rfl : j = 0 := Subsingleton.elim j 0
  rw [val_main_v32_apply, val_main_v31_apply, val_main_v30_apply]
  have e : idx_main_v30 (idx_main_v31 (ix4 b l (0 : Fin 1) a)) = ix2 b l :=
    funext fun c => Fin.ext (by match c with | ⟨0, _⟩ => rfl | ⟨1, _⟩ => rfl)
  rw [e]
  simp only [Ideal.mulf_def]

/-- The host's sum over the two middle axes of a [16, 4096, 1, 512] array from the zero word, read at (b, a): the
    sum over l of the entries (b, l, 0, a). -/
theorem sumMidPlanes (y : (⟨S16x4096x1x512, .f32⟩ : BufTy).Contents (Elt Ideal)) (b : Fin 16) (a : Fin 512) :
    Host.reduceAdd (F := Ideal) (φ := .f32) y (val_main_cst_4 (F := Ideal)) reducesTo_S16x4096x1x512_S16x512_d1_2 h_S_ (ix2 b a)
      = ∑ l : Fin 4096, y (ix4 b l (0 : Fin 1) a) := by
  simp only [Host.reduceAdd, Ideal.hostReduceAdd_def]
  rw [Cert.LibMidPlanes.hostReduceAdd_midPlanes, val_main_cst_4_apply, Ideal.ofBits_def, Ideal.ofBits_zero_f32, zero_add]
  exact Finset.sum_congr rfl fun l _ => Fin.sum_univ_one _

/-- The reference's context array is the specification's, over its attention weights and its encoder states. -/
theorem context_eq (x0 : (⟨S16x4096x1x512, .f32⟩ : BufTy).Contents (Elt Ideal)) (x1 x2 : (⟨S16x512, .f32⟩ : BufTy).Contents (Elt Ideal))
    (x3 : (⟨S16x4096x1x512, .f32⟩ : BufTy).Contents (Elt Ideal)) (x4 : (⟨S16x4096, .f32⟩ : BufTy).Contents (Elt Ideal))
    (x5 : (⟨S512, .f32⟩ : BufTy).Contents (Elt Ideal)) (x6 : (⟨S512x1024, .f32⟩ : BufTy).Contents (Elt Ideal))
    (x7 : (⟨S512, .f32⟩ : BufTy).Contents (Elt Ideal)) :
    val_main_v33 (F := Ideal) x0 x1 x2 x3 x4 x5 x6 x7 = Cert.Spec.context (val_main_v29 (F := Ideal) x0 x1 x2 x4 x5 x6 x7) x3 := by
  funext i
  obtain ⟨b, a, rfl⟩ : ∃ (b : Fin 16) (a : Fin 512), i = ix2 b a := ⟨i 0, i 1, eq_ix2 i⟩
  unfold val_main_v33
  refine (sumMidPlanes _ b a).trans ?_
  unfold Cert.Spec.context
  exact Finset.sum_congr rfl fun l _ => contextTerm x0 x1 x2 x3 x4 x5 x6 x7 b l 0 a

end Cert.ReferenceIdeal.RefValue

end
-- ==== Proof.RefValue.lean ====
/-
  The reference side of the comparison, gathered: the reference's three stages read as the shared specification.

  Scores: the reference's score array is the specification's scores over the encoder features, the decoder
  projection and the scoring vector. Weights: the reference's attention weights are the softmax / mask /
  renormalise chain `tail` applied to its scores and the mask. Context: the reference's context is the
  specification's context over those weights and the encoder states. Each is proved in a module of its own; this
  module only brings the three together under one name space.
-/
import proofs.«165522_j54606214201412_2_alg».proof.Proof.RefTail
import proofs.«165522_j54606214201412_2_alg».proof.Proof.RefScores
import proofs.«165522_j54606214201412_2_alg».proof.Proof.RefContext
-- ==== Proof.ScoresPay.lean ====
import proofs.«165522_j54606214201412_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-! # The scores kernel's payload, entry by entry

One half of the body's result, at batch row `b` and row `q` of the half, is the sum over the 512 feature lanes of
`tanh (features + projection) · vector`: the projection is broadcast along the rows, the vector along batch and
rows, and the lane reduction starts from the zero word. -/

/-- The reduced index with the lane coordinate put back is the full index. -/
theorem lane_lift (b : Fin 16) (q : Fin 128) (a : Fin 512) :
    reduces_S16x128x512_S16x128.lift (ix2 b q) a = ix3 b q a := by
  funext d; apply Fin.ext
  match d with
  | ⟨0, _⟩ => rfl
  | ⟨1, _⟩ => rfl
  | ⟨2, _⟩ => rfl

/-- The projection, given a unit row axis and broadcast along the rows, reads its (batch, lane) entry. -/
theorem proj_bcast (v0 : Vec Ideal S16x512 .f32) (b : Fin 16) (q : Fin 128) (a : Fin 512) :
    broadcastTo S16x128x512 (shapeCast S16x1x512 v0 shapeCasts_S16x512_S16x1x512) broadcasts_S16x1x512_S16x128x512 (ix3 b q a)
      = v0 (ix2 b a) := by
  rw [broadcastTo_apply _ _ (ix3 b q a) (ix3 b (0 : Fin 1) a) (fun d => by
    match d with
    | ⟨0, _⟩ => rfl
    | ⟨1, _⟩ => rfl
    | ⟨2, _⟩ => rfl)]
  refine shapeCast_apply _ _ _ (ix2 b a) ?_
  rw [Shape.rowMajor_val_two, Shape.rowMajor_val_three]
  show b.val * 512 + a.val = (b.val * 1 + 0) * 512 + a.val
  omega

/-- The vector, given two unit axes and broadcast along batch and rows, reads its lane entry. -/
theorem vec_bcast (v2 : Vec Ideal S1x512 .f32) (b : Fin 16) (q : Fin 128) (a : Fin 512) :
    broadcastTo S16x128x512 (shapeCast S1x1x512 v2 shapeCasts_S1x512_S1x1x512) broadcasts_S1x1x512_S16x128x512 (ix3 b q a)
      = v2 (ix2 (0 : Fin 1) a) := by
  rw [broadcastTo_apply _ _ (ix3 b q a) (ix3 (0 : Fin 1) (0 : Fin 1) a) (fun d => by
    match d with
    | ⟨0, _⟩ => rfl
    | ⟨1, _⟩ => rfl
    | ⟨2, _⟩ => rfl)]
  refine shapeCast_apply _ _ _ (ix2 (0 : Fin 1) a) ?_
  rw [Shape.rowMajor_val_two, Shape.rowMajor_val_three]
  show 0 * 512 + a.val = (0 * 1 + 0) * 512 + a.val
  omega

/-- The first half's payload at (batch row, row of the half). -/
theorem pay3_apply (v0 : Vec Ideal S16x512 .f32) (v2 : Vec Ideal S1x512 .f32) (v7 : Vec Ideal S16x128x512 .f32)
    (b : Fin 16) (q : Fin 128) :
    k0_pay3 (F := Ideal) v0 v2 v7 (ix2 b q)
      = ∑ a : Fin 512, Ideal.tanh (v7 (ix3 b q a) + v0 (ix2 b a)) * v2 (ix2 (0 : Fin 1) a) := by
  unfold k0_pay3 k0_pay1 k0_pay2
  dsimp only
  refine (Ideal.multiReduction_add_single (φ := .f32) _ (0x00000000#32 : BitVec 32) reduces_S16x128x512_S16x128 (.inl rfl) rfl (ix2 b q)).trans ?_
  show ∑ a : Fin 512, _ = _
  refine Finset.sum_congr rfl fun a _ => ?_
  rw [lane_lift, shapeCast_self, shapeCast_self, shapeCast_self]
  show Ideal.tanh (v7 (ix3 b q a) + broadcastTo S16x128x512 (shapeCast S16x1x512 v0 shapeCasts_S16x512_S16x1x512) broadcasts_S16x1x512_S16x128x512 (ix3 b q a))
      * broadcastTo S16x128x512 (shapeCast S1x1x512 v2 shapeCasts_S1x512_S1x1x512) broadcasts_S1x1x512_S16x128x512 (ix3 b q a) = _
  rw [proj_bcast, vec_bcast]

/-- The second half's payload is the same function of its own rows. -/
theorem pay4_apply (v0 : Vec Ideal S16x512 .f32) (v2 : Vec Ideal S1x512 .f32) (v22 : Vec Ideal S16x128x512 .f32)
    (b : Fin 16) (q : Fin 128) :
    k0_pay4 (F := Ideal) v0 v2 v22 (ix2 b q)
      = ∑ a : Fin 512, Ideal.tanh (v22 (ix3 b q a) + v0 (ix2 b a)) * v2 (ix2 (0 : Fin 1) a) :=
  pay3_apply v0 v2 v22 b q

end Cert.KernelIdeal.Hand

end
-- ==== Proof.ScoresBlock.lean ====
import proofs.«165522_j54606214201412_2_alg».proof.Proof.KI_R0Body
import proofs.«165522_j54606214201412_2_alg».proof.Proof.ScoresPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## One grid point's block of scores

At a grid point the body fills a block of 16 × 256 scores from the point's 256 rows of features: entry
(batch row, row) is the lane sum of `tanh (features + projection) · vector`. The body writes the block in two
halves of 128 rows; each half's payload is the same lane sum at its own rows, so the two stores together leave
one function of the block's index. -/

/-- The block of scores of one grid point, from its input blocks. -/
def blockScores (x1 : Vec Ideal S16x512 .f32) (x2 : Vec Ideal S1x512 .f32) (x0 : Vec Ideal S16x256x512 .f32) :
    Vec Ideal S16x256 .f32 :=
  fun i => ∑ a : Fin 512, Ideal.tanh (x0 (ix3 (i 0) (i 1) a) + x1 (ix2 (i 0) a)) * x2 (ix2 (0 : Fin 1) a)

/-- The halves' offsets as numbers: rows 0 and 128 of the block. -/
theorem off2_lo : k0_off2 0#32 0 = 0 ∧ k0_off2 0#32 1 = 0 := by decide +kernel
theorem off2_hi : k0_off2 1#32 0 = 0 ∧ k0_off2 1#32 1 = 128 := by decide +kernel
theorem off1_lo : k0_off1 0#32 0 = 0 ∧ k0_off1 0#32 1 = 0 ∧ k0_off1 0#32 2 = 0 := by decide +kernel
theorem off1_hi : k0_off1 1#32 0 = 0 ∧ k0_off1 1#32 1 = 128 ∧ k0_off1 1#32 2 = 0 := by decide +kernel

/-- Row `q` of the first half of the scores' block is row `q` of the block; -/
theorem outLo_emb (b : Fin 16) (q : Fin 128) :
    r0_outLo.emb (ix2 b q) = ix2 b (⟨q.val, by omega⟩ : Fin 256) := by
  funext d; apply Fin.ext
  match d with
  | ⟨0, _⟩ => show k0_off2 0#32 0 + 1 * b.val = b.val; rw [off2_lo.1]; omega
  | ⟨1, _⟩ => show k0_off2 0#32 1 + 1 * q.val = q.val; rw [off2_lo.2]; omega

/-- of the second half, row `128 + q`. -/
theorem outHi_emb (b : Fin 16) (q : Fin 128) :
    r0_outHi.emb (ix2 b q) = ix2 b (⟨128 + q.val, by omega⟩ : Fin 256) := by
  funext d; apply Fin.ext
  match d with
  | ⟨0, _⟩ => show k0_off2 1#32 0 + 1 * b.val = b.val; rw [off2_hi.1]; omega
  | ⟨1, _⟩ => show k0_off2 1#32 1 + 1 * q.val = 128 + q.val; rw [off2_hi.2]; omega

/-- The same of the features' block: the halves read rows `q` and `128 + q`. -/
theorem inLo_emb (b : Fin 16) (q : Fin 128) (a : Fin 512) :
    r0_inLo.emb (ix3 b q a) = ix3 b (⟨q.val, by omega⟩ : Fin 256) a := by
  funext d; apply Fin.ext
  match d with
  | ⟨0, _⟩ => show k0_off1 0#32 0 + 1 * b.val = b.val; rw [off1_lo.1]; omega
  | ⟨1, _⟩ => show k0_off1 0#32 1 + 1 * q.val = q.val; rw [off1_lo.2.1]; omega
  | ⟨2, _⟩ => show k0_off1 0#32 2 + 1 * a.val = a.val; rw [off1_lo.2.2]; omega

theorem inHi_emb (b : Fin 16) (q : Fin 128) (a : Fin 512) :
    r0_inHi.emb (ix3 b q a) = ix3 b (⟨128 + q.val, by omega⟩ : Fin 256) a := by
  funext d; apply Fin.ext
  match d with
  | ⟨0, _⟩ => show k0_off1 1#32 0 + 1 * b.val = b.val; rw [off1_hi.1]; omega
  | ⟨1, _⟩ => show k0_off1 1#32 1 + 1 * q.val = 128 + q.val; rw [off1_hi.2.1]; omega
  | ⟨2, _⟩ => show k0_off1 1#32 2 + 1 * a.val = a.val; rw [off1_hi.2.2]; omega

/-- The projection and the vector are read whole. -/
theorem dec_emb (b : Fin 16) (a : Fin 512) : r0_dec.emb (ix2 b a) = ix2 b a := by
  funext d; apply Fin.ext
  match d with
  | ⟨0, _⟩ => show 0 + 1 * b.val = b.val; omega
  | ⟨1, _⟩ => show 0 + 1 * a.val = a.val; omega

theorem vec_emb (a : Fin 512) : r0_vec.emb (ix2 (0 : Fin 1) a) = ix2 (0 : Fin 1) a := by
  funext d; apply Fin.ext
  match d with
  | ⟨0, _⟩ => show 0 + 1 * 0 = 0; omega
  | ⟨1, _⟩ => show 0 + 1 * a.val = a.val; omega

/-- Each half's payload is the block function at the half's rows. -/
theorem lo_piece (x1 : Vec Ideal S16x512 .f32) (x2 : Vec Ideal S1x512 .f32) (x0 : Vec Ideal S16x256x512 .f32)
    (b : Fin 16) (q : Fin 128) :
    k0_pay3 (F := Ideal) (View.ld x1 r0_dec) (View.ld x2 r0_vec) (View.ld x0 r0_inLo) (ix2 b q)
      = blockScores x1 x2 x0 (r0_outLo.emb (ix2 b q)) := by
  rw [pay3_apply, outLo_emb]
  unfold blockScores
  refine Finset.sum_congr rfl fun a _ => ?_
  show Ideal.tanh (x0 (r0_inLo.emb (ix3 b q a)) + x1 (r0_dec.emb (ix2 b a))) * x2 (r0_vec.emb (ix2 (0 : Fin 1) a)) = _
  rw [inLo_emb, dec_emb, vec_emb]

theorem hi_piece (x1 : Vec Ideal S16x512 .f32) (x2 : Vec Ideal S1x512 .f32) (x0 : Vec Ideal S16x256x512 .f32)
    (b : Fin 16) (q : Fin 128) :
    k0_pay4 (F := Ideal) (View.ld x1 r0_dec) (View.ld x2 r0_vec) (View.ld x0 r0_inHi) (ix2 b q)
      = blockScores x1 x2 x0 (r0_outHi.emb (ix2 b q)) := by
  rw [pay4_apply, outHi_emb]
  unfold blockScores
  refine Finset.sum_congr rfl fun a _ => ?_
  show Ideal.tanh (x0 (r0_inHi.emb (ix3 b q a)) + x1 (r0_dec.emb (ix2 b a))) * x2 (r0_vec.emb (ix2 (0 : Fin 1) a)) = _
  rw [inHi_emb, dec_emb, vec_emb]

/-- So the two stores leave the block function: the output's staging buffer after the body, entry by entry. -/
theorem out0_3_eq (x1 : Vec Ideal S16x512 .f32) (x2 : Vec Ideal S1x512 .f32) (x0 : Vec Ideal S16x256x512 .f32) :
    out0_3 (F := Ideal) x1 x2 x0 = blockScores x1 x2 x0 := by
  funext y
  unfold out0_3
  refine View.canon_apply_of_pieces (blockScores x1 x2 x0) _ ?_ y (cover0_3 _ _ y)
  intro p hp x
  simp only [List.mem_cons, List.not_mem_nil, or_false] at hp
  rcases hp with rfl | rfl
  · exact (congrArg _ (eq_ix2 x)).trans ((hi_piece x1 x2 x0 (x 0) (x 1)).trans (congrArg _ (congrArg _ (eq_ix2 x).symm)))
  · exact (congrArg _ (eq_ix2 x)).trans ((lo_piece x1 x2 x0 (x 0) (x 1)).trans (congrArg _ (congrArg _ (eq_ix2 x).symm)))

end Cert.KernelIdeal.Hand

end
-- ==== Proof.ScoresValue.lean ====
import proofs.«165522_j54606214201412_2_alg».proof.Proof.KI_R0Body
import proofs.«165522_j54606214201412_2_alg».proof.Proof.ScoresBlock
import proofs.«165522_j54606214201412_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## From blocks to the array

Grid point `t` works on rows `256·t … 256·t + 255` of the sequence: the features' window and the scores' window
both sit at block `t` along that axis and at block 0 elsewhere, and the projection and the vector are one block
each. So what point `t` writes back is rows `256·t …` of the specification's scores, and the 16 points' blocks
cover every row. -/

/-- The windows' block indices at every grid point, decided once over the grid. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- One entry of a point's block is the specification's score at the row the block's row sits at: the
    features' block holds the array's rows there (`hX0`), the projection and the vector are read whole, and the
    features and the vector are the arguments reshaped (`h0`, `h8`). -/
theorem block_entry (A0 : S16x4096x512.Idx → EReal) (A7 : S16x512.Idx → EReal) (A8 : S1x512.Idx → EReal)
    (x0 : S16x4096x1x512.Idx → EReal) (x5 : S512.Idx → EReal)
    (h0 : ∀ (b : Fin 16) (l : Fin 4096) (a : Fin 512), A0 (ix3 b l a) = x0 (ix4 b l (0 : Fin 1) a))
    (h8 : ∀ a : Fin 512, A8 (ix2 (0 : Fin 1) a) = x5 (ix1 a))
    (X0 : Vec Ideal S16x256x512 .f32) (X1 : Vec Ideal S16x512 .f32) (X2 : Vec Ideal S1x512 .f32)
    (b : Fin 16) (q : Fin 256) (l : Fin 4096)
    (hX0 : ∀ a : Fin 512, X0 (ix3 b q a) = A0 (ix3 b l a))
    (hX1 : ∀ a : Fin 512, X1 (ix2 b a) = A7 (ix2 b a))
    (hX2 : ∀ a : Fin 512, X2 (ix2 (0 : Fin 1) a) = A8 (ix2 (0 : Fin 1) a)) :
    blockScores X1 X2 X0 (ix2 b q) = Cert.Spec.scores x0 A7 x5 (ix2 b l) := by
  unfold blockScores Cert.Spec.scores
  refine Finset.sum_congr rfl fun a _ => ?_
  show Ideal.tanh (X0 (ix3 b q a) + X1 (ix2 b a)) * X2 (ix2 (0 : Fin 1) a)
      = Ideal.tanh (x0 (ix4 b l (0 : Fin 1) a) + A7 (ix2 b a)) * x5 (ix1 a)
  rw [hX0, hX1, hX2, h0, h8]

section Array
variable (V : (c : Dev nD) → (b : Ref sig .tc) → Buf (Elt Ideal) ((c : Thread nD τ).loc b))

/-- What point `t` writes back is block `t` of the specification's scores. -/
theorem flushed_scores (c : Dev nD)
    (x0 : S16x4096x1x512.Idx → EReal) (x5 : S512.Idx → EReal)
    (h0 : ∀ (b : Fin 16) (l : Fin 4096) (a : Fin 512), (V c main_v0 : S16x4096x512.Idx → EReal) (ix3 b l a) = x0 (ix4 b l (0 : Fin 1) a))
    (h8 : ∀ a : Fin 512, (V c main_v8 : S1x512.Idx → EReal) (ix2 (0 : Fin 1) a) = x5 (ix1 a))
    (t : Fin cfg0.N) :
    (dat0 (F := Ideal) V c).flushed 3 t
      = ((cfg0.win 3).blk t).view.read (Elt Ideal) (Cert.Spec.scores x0 (V c main_v7 : S16x512.Idx → EReal) x5) := by
  show (cfg0.win 3).cut (grid0.coords t) ((dat0 V c).after 3 t) = _
  rw [after0_3, out0_3_eq]
  obtain ⟨e00, e01, e02, e10, e11, e20, e21, e30, e31⟩ := idx_facts t
  have ht : t.val < 16 := by have h : t.val < grid0.N := t.isLt; have hN : grid0.N = 16 := N_0; omega
  funext j
  have hj0 : (j 0).val < 16 := (j 0).isLt
  have hj1 : (j 1).val < 256 := (j 1).isLt
  have hi : ((cfg0.win 3).blk t).view.emb j
      = ix2 (⟨(j 0).val, hj0⟩ : Fin 16) (⟨256 * t.val + (j 1).val, by omega⟩ : Fin 4096) := by
    funext d; apply Fin.ext
    match d with
    | ⟨0, _⟩ => show win0_3.index t (0 : Fin 2) * 16 + 1 * (j 0).val = (j 0).val; omega
    | ⟨1, _⟩ => show win0_3.index t (1 : Fin 2) * 256 + 1 * (j 1).val = 256 * t.val + (j 1).val; omega
  have hx : (cfg0.win 3).xinj (grid0.coords t) j = ix2 (⟨(j 0).val, hj0⟩ : Fin 16) (⟨(j 1).val, hj1⟩ : Fin 256) := by
    funext d; apply Fin.ext
    match d with
    | ⟨0, _⟩ => rfl
    | ⟨1, _⟩ => rfl
  show blockScores (iblk0 V c 1 t) (iblk0 V c 2 t) (iblk0 V c 0 t) ((cfg0.win 3).xinj (grid0.coords t) j)
      = Cert.Spec.scores x0 (V c main_v7 : S16x512.Idx → EReal) x5 (((cfg0.win 3).blk t).view.emb j)
  rw [hi, hx]
  refine block_entry (V c main_v0) (V c main_v7) (V c main_v8) x0 x5 h0 h8 _ _ _ _ _ _ (fun a => ?_) (fun a => ?_) (fun a => ?_)
  · show (V c main_v0 : S16x4096x512.Idx → EReal) (((cfg0.win 0).blk t).view.emb (ix3 (⟨(j 0).val, hj0⟩ : Fin 16) (⟨(j 1).val, hj1⟩ : Fin 256) a)) = _
    congr 1
    funext d; apply Fin.ext
    match d with
    | ⟨0, _⟩ => show win0_0.index t (0 : Fin 3) * 16 + 1 * (j 0).val = (j 0).val; omega
    | ⟨1, _⟩ => show win0_0.index t (1 : Fin 3) * 256 + 1 * (j 1).val = 256 * t.val + (j 1).val; omega
    | ⟨2, _⟩ => show win0_0.index t (2 : Fin 3) * 512 + 1 * a.val = a.val; omega
  · show (V c main_v7 : S16x512.Idx → EReal) (((cfg0.win 1).blk t).view.emb (ix2 (⟨(j 0).val, hj0⟩ : Fin 16) a)) = _
    congr 1
    funext d; apply Fin.ext
    match d with
    | ⟨0, _⟩ => show win0_1.index t (0 : Fin 2) * 16 + 1 * (j 0).val = (j 0).val; omega
    | ⟨1, _⟩ => show win0_1.index t (1 : Fin 2) * 512 + 1 * a.val = a.val; omega
  · show (V c main_v8 : S1x512.Idx → EReal) (((cfg0.win 2).blk t).view.emb (ix2 (0 : Fin 1) a)) = _
    congr 1
    funext d; apply Fin.ext
    match d with
    | ⟨0, _⟩ => show win0_2.index t (0 : Fin 2) * 1 + 1 * 0 = 0; omega
    | ⟨1, _⟩ => show win0_2.index t (1 : Fin 2) * 512 + 1 * a.val = a.val; omega

/-- An index of the scores' array is in point `t`'s block iff each coordinate is in the block's range. -/
theorem mem_blk3 (t : Fin cfg0.N) (i : S16x4096.Idx) :
    i ∈ ((cfg0.win 3).blk t).view.set ↔ ∀ a : Fin 2, win0_3.index t a * S16x256.size a ≤ (i a).val
      ∧ (i a).val < win0_3.index t a * S16x256.size a + S16x256.size a := by
  show i ∈ ((View.whole main_v9).slice (win0_3.rect t)).set ↔ _
  rw [View.set_slice_whole, Rect.mem_set_unit]
  exact Iff.rfl

/-- Row `l` of the scores is written back by point `l / 256`. -/
theorem covered (i : S16x4096.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hN : grid0.N = 16 := N_0
  obtain ⟨t, ht⟩ : ∃ t : Fin cfg0.N, t.val = (i 1).val / 256 :=
    ⟨⟨(i 1).val / 256, by show (i 1).val / 256 < grid0.N; omega⟩, rfl⟩
  refine ⟨t, flush0_3 t, ?_⟩
  rw [mem_blk3]
  obtain ⟨-, -, -, -, -, -, -, e30, e31⟩ := idx_facts t
  intro a
  match a with
  | ⟨0, _⟩ =>
    show win0_3.index t (0 : Fin 2) * 16 ≤ (i 0).val ∧ (i 0).val < win0_3.index t (0 : Fin 2) * 16 + 16
    omega
  | ⟨1, _⟩ =>
    show win0_3.index t (1 : Fin 2) * 256 ≤ (i 1).val ∧ (i 1).val < win0_3.index t (1 : Fin 2) * 256 + 256
    omega

/-- The array the first region leaves is the specification's scores of the arguments. -/
theorem scores_final (c : Dev nD)
    (x0 : S16x4096x1x512.Idx → EReal) (x5 : S512.Idx → EReal)
    (h0 : ∀ (b : Fin 16) (l : Fin 4096) (a : Fin 512), (V c main_v0 : S16x4096x512.Idx → EReal) (ix3 b l a) = x0 (ix4 b l (0 : Fin 1) a))
    (h8 : ∀ a : Fin 512, (V c main_v8 : S1x512.Idx → EReal) (ix2 (0 : Fin 1) a) = x5 (ix1 a)) :
    (dat0 (F := Ideal) V c).arrAt 3 cfg0.N = Cert.Spec.scores x0 (V c main_v7 : S16x512.Idx → EReal) x5 :=
  (dat0 (F := Ideal) V c).arrAt_eq_of_cover 3 (Cert.Spec.scores x0 (V c main_v7 : S16x512.Idx → EReal) x5)
    (fun t _ => flushed_scores V c x0 x5 h0 h8 t) covered

end Array

end Cert.KernelIdeal.Hand

end
-- ==== Proof.KI_Host.lean ====
/-
  The idealized kernel program's host operations read back, and the first two links of the comparison
  with the reference.

  Before the scores region the host forms: the encoder features and states with their unit axis
  dropped (entry (b, l, a) of the squeezed array is entry (b, l, 0, a) of the argument), the scoring
  vector as a row (entry (0, a) is entry a), and the decoder projection — the same operations, on the
  same arguments, as the reference's, so the same array.  The region then leaves the scores array of
  the specification.  Between the regions the host applies to that array and the mask exactly the
  chain of operations the reference applies to its own scores and the mask; so the weights handed to
  the context region are that chain of the specification's scores.  The mask, like every argument, is
  written by no one.
-/
import proofs.«165522_j54606214201412_2_alg».proof.Proof.KI_Run
import proofs.«165522_j54606214201412_2_alg».proof.Proof.RefValue
import proofs.«165522_j54606214201412_2_alg».proof.Proof.ScoresValue
import Idealize.ShloMosaic.Lib.Pipeline.Value
import Idealize.ShloMosaic.Lib.ValueIdx
import Idealize.ShloMosaic.Lib.ValueLayout

-- membership in a rectangle of full-size extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

variable (m : (ℓ : Loc nD τ sig) → Buf (Elt Ideal) ℓ) (c : Dev nD)

/-! ## The two results, as functions of the launch memory -/

/-- The decoder projection of the launch memory's arguments (the reference's stage of the same name). -/
def decOf : S16x512.Idx → EReal :=
  Cert.ReferenceIdeal.Read.val_main_v5 (F := Ideal) (m ((c : Thread nD τ).loc main_arg1)) (m ((c : Thread nD τ).loc main_arg2)) (m ((c : Thread nD τ).loc main_arg6)) (m ((c : Thread nD τ).loc main_arg7))
/-- The scores. -/
def scoresOf : S16x4096.Idx → EReal :=
  Cert.Spec.scores (m ((c : Thread nD τ).loc main_arg0)) (decOf m c) (m ((c : Thread nD τ).loc main_arg5))
/-- The attention weights: the softmax / mask / renormalise chain of the scores and the mask. -/
def attnOf : S16x4096.Idx → EReal :=
  Cert.ReferenceIdeal.RefValue.tail (scoresOf m c) (m ((c : Thread nD τ).loc main_arg4))
/-- The context. -/
def ctxOf : S16x512.Idx → EReal :=
  Cert.Spec.context (attnOf m c) (m ((c : Thread nD τ).loc main_arg3))

/-! ## The first stretch of host operations -/

/-- The decoder projection: the reference's operations on the same arguments. -/
theorem W1_v7 : W1 (F := Ideal) m c (Proc.devRef .tc main_v7) = decOf m c := by
  show StableHlo.after hostOps0 (fun b => m (c, b)) (Proc.devRef .tc main_v7) = _
  after_results
  unfold decOf Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
  rfl

/-- The squeezed encoder features: the unit axis dropped. -/
theorem W1_v0_apply (b : Fin 16) (l : Fin 4096) (a : Fin 512) :
    (W1 (F := Ideal) m c (Proc.devRef .tc main_v0) : S16x4096x512.Idx → EReal) (ix3 b l a)
      = (m ((c : Thread nD τ).loc main_arg0) : S16x4096x1x512.Idx → EReal) (ix4 b l (0 : Fin 1) a) := by
  show StableHlo.after hostOps0 (fun b => m (c, b)) (Proc.devRef .tc main_v0) (ix3 b l a) = _
  after_results
  show shapeCast S16x4096x512 (m (c, Proc.devRef .tc main_arg0) : S16x4096x1x512.Idx → EReal) shapeCasts_S16x4096x1x512_S16x4096x512 (ix3 b l a) = _
  refine (shapeCast_apply _ _ _ (ix4 b l (0 : Fin 1) a) ?_).trans rfl
  rw [Shape.rowMajor_val_four, Shape.rowMajor_val_three]
  show ((b.val * 4096 + l.val) * 1 + 0) * 512 + a.val = (b.val * 4096 + l.val) * 512 + a.val
  omega

/-- The squeezed encoder states. -/
theorem W1_v1_apply (b : Fin 16) (l : Fin 4096) (a : Fin 512) :
    (W1 (F := Ideal) m c (Proc.devRef .tc main_v1) : S16x4096x512.Idx → EReal) (ix3 b l a)
      = (m ((c : Thread nD τ).loc main_arg3) : S16x4096x1x512.Idx → EReal) (ix4 b l (0 : Fin 1) a) := by
  show StableHlo.after hostOps0 (fun b => m (c, b)) (Proc.devRef .tc main_v1) (ix3 b l a) = _
  after_results
  show shapeCast S16x4096x512 (m (c, Proc.devRef .tc main_arg3) : S16x4096x1x512.Idx → EReal) shapeCasts_S16x4096x1x512_S16x4096x512 (ix3 b l a) = _
  refine (shapeCast_apply _ _ _ (ix4 b l (0 : Fin 1) a) ?_).trans rfl
  rw [Shape.rowMajor_val_four, Shape.rowMajor_val_three]
  show ((b.val * 4096 + l.val) * 1 + 0) * 512 + a.val = (b.val * 4096 + l.val) * 512 + a.val
  omega

/-- The scoring vector as a row. -/
theorem W1_v8_apply (a : Fin 512) :
    (W1 (F := Ideal) m c (Proc.devRef .tc main_v8) : S1x512.Idx → EReal) (ix2 (0 : Fin 1) a)
      = (m ((c : Thread nD τ).loc main_arg5) : S512.Idx → EReal) (ix1 a) := by
  show StableHlo.after hostOps0 (fun b => m (c, b)) (Proc.devRef .tc main_v8) (ix2 (0 : Fin 1) a) = _
  after_results
  show shapeCast S1x512 (m (c, Proc.devRef .tc main_arg5) : S512.Idx → EReal) shapeCasts_S512_S1x512 (ix2 (0 : Fin 1) a) = _
  refine (shapeCast_apply _ _ _ (ix1 a) ?_).trans rfl
  rw [Shape.rowMajor_val_one, Shape.rowMajor_val_two]
  show a.val = 0 * 512 + a.val
  omega

/-! ## The scores region's result -/

/-- The scores region leaves the specification's scores. -/
theorem W2_v9 : W2 (F := Ideal) m c (Proc.devRef .tc main_v9) = scoresOf m c := by
  refine (W2_arr m c 3).trans ?_
  refine (scores_final (V1 m) c (m ((c : Thread nD τ).loc main_arg0)) (m ((c : Thread nD τ).loc main_arg5)) (W1_v0_apply m c) (W1_v8_apply m c)).trans ?_
  unfold scoresOf
  exact congrArg (fun d => Cert.Spec.scores (m ((c : Thread nD τ).loc main_arg0)) d (m ((c : Thread nD τ).loc main_arg5))) (W1_v7 m c)

/-- The mask passes the scores region untouched. -/
theorem W2_arg4 : W2 (F := Ideal) m c (Proc.devRef .tc main_arg4) = m ((c : Thread nD τ).loc main_arg4) :=
  (W2_of_ne m c main_arg4 (by decide)).trans ((StableHlo.after_of_writes_sub hostOps0 _ hostOps0_writes (by decide)).trans rfl)

/-! ## The second stretch of host operations -/

/-- The weights handed to the context region: the reference's chain, of the specification's scores and the mask. -/
theorem W3_v25 : W3 (F := Ideal) m c (Proc.devRef .tc main_v25) = attnOf m c := by
  have e : W3 (F := Ideal) m c (Proc.devRef .tc main_v25)
      = Cert.ReferenceIdeal.RefValue.tail (W2 (F := Ideal) m c (Proc.devRef .tc main_v9)) (W2 (F := Ideal) m c (Proc.devRef .tc main_arg4)) := by
    show StableHlo.after hostOps1 (W2 m c) (Proc.devRef .tc main_v25) = _
    after_results_simp
    unfold Cert.ReferenceIdeal.RefValue.tail Cert.ReferenceIdeal.RefValue.rowNormalise Cert.ReferenceIdeal.RefValue.tailExp Cert.ReferenceIdeal.RefValue.tailShift
    rfl
  rw [e, W2_v9, W2_arg4]; rfl

/-- The encoder states reach the context region as the first stretch left them. -/
theorem W3_v1 : W3 (F := Ideal) m c (Proc.devRef .tc main_v1) = W1 (F := Ideal) m c (Proc.devRef .tc main_v1) :=
  (StableHlo.after_of_writes_sub hostOps1 _ hostOps1_writes (by decide)).trans (W2_of_ne m c main_v1 (by decide))

theorem W3_v1_apply (b : Fin 16) (l : Fin 4096) (a : Fin 512) :
    (W3 (F := Ideal) m c (Proc.devRef .tc main_v1) : S16x4096x512.Idx → EReal) (ix3 b l a)
      = (m ((c : Thread nD τ).loc main_arg3) : S16x4096x1x512.Idx → EReal) (ix4 b l (0 : Fin 1) a) := by
  rw [W3_v1]; exact W1_v1_apply m c b l a

/-! ## The weights at the end -/

/-- The weights are an input of the context region, so they end as it found them. -/
theorem W4_v25 : W4 (F := Ideal) m c (Proc.devRef .tc main_v25) = attnOf m c :=
  (W4_arr m c 0).trans (((dat1 (V3 m) c).arrAt_in 0 rfl _).trans ((A_eq1 (V3 m) c 0).trans (W3_v25 m c)))

end Cert.KernelIdeal.Hand

end
-- ==== Proof.ContextStep.lean ====
/-
  What one grid point of the context kernel does to its accumulator, as one function.

  The body loads the weights' block w [8, 512] and the states' block s [8, 512, 512] in four chunks of 128 positions
  and, chunk after chunk, replaces the accumulator a [8, 512] by a plus the chunk's partial sum of w · s.  Every store
  writes the whole accumulator and every load of it reads it whole, so what a point leaves is the fourfold
  composition `step w s a`; a first point of a row starts it from the zero block, and a last point also copies the
  result into the output block.  These are equalities between the pieces the body's run recorded and `step`, for
  any float values.
-/
import proofs.«165522_j54606214201412_2_alg».proof.Proof.KI_R1Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Ctx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- Two zero offsets, however spelt, are the zero offsets. -/
theorem hz2 : (![0, 0] : Fin 2 → Nat) = fun _ => 0 := funext fun a => by fin_cases a <;> rfl

/-- Chunk k of the weights' block: its columns 128k … 128k + 127. -/
abbrev rW0 : Rect S8x512 := Rect.unit (s := S8x512) ![0, 0] ![8, 128] (by decide)
abbrev rW1 : Rect S8x512 := Rect.unit (s := S8x512) ![0, 128] ![8, 128] (by decide)
abbrev rW2 : Rect S8x512 := Rect.unit (s := S8x512) ![0, 256] ![8, 128] (by decide)
abbrev rW3 : Rect S8x512 := Rect.unit (s := S8x512) ![0, 384] ![8, 128] (by decide)
/-- Chunk k of the states' block: its rows 128k … 128k + 127 on the middle axis. -/
abbrev rS0 : Rect S8x512x512 := Rect.unit (s := S8x512x512) ![0, 0, 0] ![8, 128, 512] (by decide)
abbrev rS1 : Rect S8x512x512 := Rect.unit (s := S8x512x512) ![0, 128, 0] ![8, 128, 512] (by decide)
abbrev rS2 : Rect S8x512x512 := Rect.unit (s := S8x512x512) ![0, 256, 0] ![8, 128, 512] (by decide)
abbrev rS3 : Rect S8x512x512 := Rect.unit (s := S8x512x512) ![0, 384, 0] ![8, 128, 512] (by decide)

/-- One grid point's work on the accumulator `a`: the four chunks' partial sums added one after the other. -/
def step (x0 : Vec F S8x512 .f32) (x1 : Vec F S8x512x512 .f32) (a : Vec F S8x512 .f32) : Vec F S8x512 .f32 :=
  k1_pay6 (View.ld x0 rW3) (View.ld x1 rS3)
    (k1_pay5 (View.ld x0 rW2) (View.ld x1 rS2)
      (k1_pay4 (k1_pay3 (View.ld x0 rW1) (View.ld x1 rS1) (k1_pay2 (View.ld x0 rW0) (View.ld x1 rS0) a))))

/-- A middle point of a row leaves `step` of what the point before left. -/
theorem sout1_B_0_eq (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512 .f32) (x1 : Vec F S8x512x512 .f32) (xs0 : Vec F S8x512 .f32) :
    sout1_B_0 c i arg2 harg2 arg3 harg3 arg4 harg4 arg5 harg5 hc0 hc1 x0 x1 xs0 = step x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_cons_unit_zero (S := S8x512) hz2]
  simp only [View.readCov_cons_toLoadRect, View.readAt_eq_ld, harg2.read_unread, harg3.read_unread, harg5.read_unread, View.ld_unit_zero (S := S8x512) hz2]
  rfl

/-- A last point of a row leaves `step` of what the point before left in the accumulator … -/
theorem sout1_C_0_eq (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512 .f32) (x1 : Vec F S8x512x512 .f32) (xs0 : Vec F S8x512 .f32) :
    sout1_C_0 c i arg2 harg2 arg3 harg3 arg4 harg4 arg5 harg5 hc0 hc1 x0 x1 xs0 = step x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_cons_unit_zero (S := S8x512) hz2]
  simp only [View.readCov_cons_toLoadRect, View.readAt_eq_ld, harg2.read_unread, harg3.read_unread, harg5.read_unread, View.ld_unit_zero (S := S8x512) hz2]
  rfl

/-- … and a copy of it in the output block. -/
theorem out1_C_2_eq (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512 .f32) (x1 : Vec F S8x512x512 .f32) (xs0 : Vec F S8x512 .f32) :
    out1_C_2 c i arg2 harg2 arg3 harg3 arg4 harg4 arg5 harg5 hc0 hc1 x0 x1 xs0 = step x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_cons_unit_zero (S := S8x512) hz2]
  simp only [View.readCov_cons_toLoadRect, View.readAt_eq_ld, harg2.read_unread, harg3.read_unread, harg5.read_unread, View.ld_unit_zero (S := S8x512) hz2]
  rfl

/-- A first point of a row leaves `step` of the zero block, whatever the accumulator held. -/
theorem sout1_A_0_eq (c : Dev nD) (i : grid1.Coords) (arg2 : Memref sig .tc .vmem S8x512 .f32) (harg2 : arg2.IsWhole) (arg3 : Memref sig .tc .vmem S8x512x512 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512 .f32) (x1 : Vec F S8x512x512 .f32) :
    sout1_A_0 c i arg2 harg2 arg3 harg3 arg4 harg4 arg5 harg5 hc0 hc1 x0 x1 = step x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S8x512) hz2]
  simp only [View.readCov_cons_toLoadRect, View.readAt_eq_ld, harg2.read_unread, harg3.read_unread, harg5.read_unread, View.ld_unit_zero (S := S8x512) hz2]
  rfl

end Cert.KernelIdeal.Hand.Ctx

end
-- ==== Proof.LibGrid.lean ====
/-
  General lemmas about a matrix `[a·b, c]` viewed as a grid `[a, b, c]`, read at an index.

  * An `[a, b]` array cast to `[a, 1, b]` holds at `(i, 0, j)` the array's entry `(i, j)`.
  * An `[n, c]` array with `n = a·b` cast to `[a, b, c]` holds at `(i, j, l)` the array's entry `(i·b + j, l)`, and the
    cast back holds at `(i·b + j, l)` the grid's entry `(i, j, l)`.
  * An `[a, 1, b]` array broadcast to `[a, c, b]` holds at `(i, r, j)` the entry `(i, 0, j)`; a `[1, a, b]` array broadcast
    to `[c, a, b]` holds at `(r, i, j)` the entry `(0, i, j)`.
  * At the extended reals a sum of an `[a, b, c]` array along its middle axis holds at `(i, l)` the sum over `j` of the
    entries `(i, j, l)`, and a sum along its first axis holds at `(j, l)` the sum over `i` of the entries `(i, j, l)`.
-/
import Idealize.ShloMosaic.Lib.Pipeline.Value
import Idealize.ShloMosaic.Lib.ValueIdx
import Idealize.ShloMosaic.PureOps.Ideal.Laws

noncomputable section

namespace Cert.LibGrid

open Idealize.ShloMosaic Idealize.ShloMosaic.ValueIdx

variable {α : Type}

/-- A matrix cast to a grid with a unit middle axis reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- A matrix of `a·b` rows viewed as a grid reads, at `(i, j, l)`, the matrix at row `i·b + j`. -/
theorem shapeCast_flat_grid_apply {a b c n : ℕ} (x : (⟨2, ![n, c]⟩ : Shape).Idx → α)
    (h : (⟨2, ![n, c]⟩ : Shape).ShapeCasts ⟨3, ![a, b, c]⟩) (i : Fin a) (j : Fin b) (l : Fin c) (e : Fin n)
    (he : e.val = i.val * b + j.val) : shapeCast ⟨3, ![a, b, c]⟩ x h (ix3 i j l) = x (ix2 e l) :=
  shapeCast_apply x h _ _ (by
    rw [Shape.rowMajor_val_two, Shape.rowMajor_val_three]
    show e.val * c + l.val = (i.val * b + j.val) * c + l.val
    rw [he])

/-- A grid viewed as a matrix of `a·b` rows reads, at row `i·b + j`, the grid at `(i, j, l)`. -/
theorem shapeCast_grid_flat_apply {a b c n : ℕ} (x : (⟨3, ![a, b, c]⟩ : Shape).Idx → α)
    (h : (⟨3, ![a, b, c]⟩ : Shape).ShapeCasts ⟨2, ![n, c]⟩) (e : Fin n) (l : Fin c) (i : Fin a) (j : Fin b)
    (he : e.val = i.val * b + j.val) : shapeCast ⟨2, ![n, c]⟩ x h (ix2 e l) = x (ix3 i j l) :=
  shapeCast_apply x h _ _ (by
    rw [Shape.rowMajor_val_three, Shape.rowMajor_val_two]
    show (i.val * b + j.val) * c + l.val = e.val * c + l.val
    rw [he])

/-- A grid with a unit middle axis broadcast along it reads, at `(i, r, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (r : Fin c) (j : Fin b) :
    broadcastTo ⟨3, ![a, c, b]⟩ v h (ix3 i r j) = v (ix3 i (0 : Fin 1) j) := by
  refine broadcastTo_apply v h (ix3 i r j) (ix3 i (0 : Fin 1) j) fun ax => ?_
  match ax with
  | ⟨0, _⟩ =>
    show i.val = if a = 1 then 0 else i.val
    split
    · have := i.isLt; omega
    · rfl
  | ⟨1, _⟩ =>
    show (0 : ℕ) = if (1 : ℕ) = 1 then 0 else r.val
    rw [if_pos rfl]
  | ⟨2, _⟩ =>
    show j.val = if b = 1 then 0 else j.val
    split
    · have := j.isLt; omega
    · rfl

/-- A grid with a unit first axis broadcast along it reads, at `(r, i, j)`, the operand at `(0, i, j)`. -/
theorem broadcastTo_1ab_cab_apply {a b c : ℕ} (v : (⟨3, ![1, a, b]⟩ : Shape).Idx → α)
    (h : (⟨3, ![1, a, b]⟩ : Shape).Broadcasts ⟨3, ![c, a, b]⟩) (r : Fin c) (i : Fin a) (j : Fin b) :
    broadcastTo ⟨3, ![c, a, b]⟩ v h (ix3 r i j) = v (ix3 (0 : Fin 1) i j) := by
  refine broadcastTo_apply v h (ix3 r i j) (ix3 (0 : Fin 1) i j) fun ax => ?_
  match ax with
  | ⟨0, _⟩ =>
    show (0 : ℕ) = if (1 : ℕ) = 1 then 0 else r.val
    rw [if_pos rfl]
  | ⟨1, _⟩ =>
    show i.val = if a = 1 then 0 else i.val
    split
    · have := i.isLt; omega
    · rfl
  | ⟨2, _⟩ =>
    show j.val = if b = 1 then 0 else j.val
    split
    · have := j.isLt; omega
    · rfl

/-- A float sum of a grid along its middle axis, at the extended reals, read at `(i, l)`. -/
theorem sum_middle_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec FTy.f32.bits) = FKind.add.neutral .f32 hφ) (i : Fin a) (l : Fin c) :
    multiReduction .add [1] ⟨2, ![a, c]⟩ src 0x00000000#32 h hφ hacc (ix2 i l) = ∑ j : Fin b, src (ix3 i j l) :=
  (Ideal.multiReduction_add_single src _ h hφ hacc (ix2 i l)).trans
    (Finset.sum_congr rfl fun j _ => congrArg src (funext fun ax => Fin.ext (by
      match ax with
      | ⟨0, _⟩ => rfl
      | ⟨1, _⟩ => rfl
      | ⟨2, _⟩ => rfl)))

/-- A float sum of a grid along its first axis, at the extended reals, read at `(j, l)`. -/
theorem sum_first_apply {a b c : ℕ} (src : FVec Ideal ⟨3, ![a, b, c]⟩ .f32)
    (h : (⟨3, ![a, b, c]⟩ : Shape).Reduces [0] ⟨2, ![b, c]⟩) (hφ : FKind.Formats .f32)
    (hacc : (0x00000000#32 : BitVec FTy.f32.bits) = FKind.add.neutral .f32 hφ) (j : Fin b) (l : Fin c) :
    multiReduction .add [0] ⟨2, ![b, c]⟩ src 0x00000000#32 h hφ hacc (ix2 j l) = ∑ i : Fin a, src (ix3 i j l) :=
  (Ideal.multiReduction_add_single src _ h hφ hacc (ix2 j l)).trans
    (Finset.sum_congr rfl fun i _ => congrArg src (funext fun ax => Fin.ext (by
      match ax with
      | ⟨0, _⟩ => rfl
      | ⟨1, _⟩ => rfl
      | ⟨2, _⟩ => rfl)))

end Cert.LibGrid

end
-- ==== Proof.LibBlockSum.lean ====
/-
  Regrouping a finite sum into consecutive blocks.

  A sum over `Fin (n * b)` is the sum, over the `n` blocks, of each block's `b` consecutive terms: entry
  `q + b * j` is term `q` of block `j`. Only commutativity and associativity of `+` are used, so the law
  holds in every additive commutative monoid — in particular on the extended reals, where regrouping a sum
  needs no finiteness of its terms.
-/
import Mathlib.Data.Fintype.BigOperators
import Mathlib.Logic.Equiv.Fin.Basic

namespace Cert.BlockSum

/-- A sum over `Fin (n * b)` split into `n` consecutive blocks of length `b`. -/
theorem sum_blocks {M : Type*} [AddCommMonoid M] (n b : ℕ) (f : Fin (n * b) → M) :
    ∑ k, f k = ∑ j : Fin n, ∑ q : Fin b, f (finProdFinEquiv (j, q)) := by
  rw [← Fintype.sum_prod_type' (fun j q => f (finProdFinEquiv (j, q)))]
  exact (Equiv.sum_comp finProdFinEquiv f).symm

/-- The position of term `q` of block `j`. -/
theorem finProdFinEquiv_val {n b : ℕ} (j : Fin n) (q : Fin b) :
    (finProdFinEquiv (j, q)).val = q.val + b * j.val := rfl

end Cert.BlockSum
-- ==== Proof.ContextPay.lean ====
/-
  One grid point of the context kernel at the extended reals, entry by entry.

  A chunk's partial sum spreads the 128 weights of a row over the feature axis, multiplies by the states and sums
  over the 128 positions: at row r and feature q it is ∑ j, w(r, j) · s(r, j, q).  Adding the four chunks' partial
  sums one after the other to an accumulator a gives a(r, q) plus the four sums, and the four blocks of 128
  positions make up the 512 positions of the block: step w s a at (r, q) is a(r, q) + ∑ p, w(r, p) · s(r, p, q).
  Only associativity and commutativity of addition on the extended reals are used; no entry need be finite.
-/
import proofs.«165522_j54606214201412_2_alg».proof.Proof.ContextStep
import proofs.«165522_j54606214201412_2_alg».proof.Proof.LibGrid
import proofs.«165522_j54606214201412_2_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Ctx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open scoped BigOperators

/-- A matrix cast to a grid with a unit last axis reads, at (i, j, u), the matrix at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- A grid with a unit last axis broadcast along it reads, at (i, j, l), the operand at (i, j, 0). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else l.val
    rw [if_pos rfl]

/-- A chunk's partial sum at (r, q): the sum over its 128 positions of weight · state. -/
theorem chunkSum_apply (v6 : FVec Ideal S8x128 .f32) (v9 : FVec Ideal S8x128x512 .f32) (r : Fin 8) (q : Fin 512) :
    multiReduction .add [1] S8x512 (mulf (broadcastTo S8x128x512 (shapeCast S8x128x1 (shapeCast S8x128 v6 shapeCasts_S8x128_S8x128) shapeCasts_S8x128_S8x128x1) broadcasts_S8x128x1_S8x128x512) (shapeCast S8x128x512 v9 shapeCasts_S8x128x512_S8x128x512)) 0x00000000#32 reduces_S8x128x512_S8x512 (.inl rfl) rfl (ix2 r q)
      = ∑ j : Fin 128, v6 (ix2 r j) * v9 (ix3 r j q) := by
  refine (Cert.LibGrid.sum_middle_apply _ reduces_S8x128x512_S8x512 (.inl rfl) rfl r q).trans ?_
  refine Finset.sum_congr rfl fun j _ => ?_
  show broadcastTo S8x128x512 (shapeCast S8x128x1 (shapeCast S8x128 v6 shapeCasts_S8x128_S8x128) shapeCasts_S8x128_S8x128x1) broadcasts_S8x128x1_S8x128x512 (ix3 r j q) * shapeCast S8x128x512 v9 shapeCasts_S8x128x512_S8x128x512 (ix3 r j q) = _
  rw [broadcastTo_ab1_abc_apply, shapeCast_ab_ab1_apply, shapeCast_self, shapeCast_self]

theorem pay2_apply (v6 : FVec Ideal S8x128 .f32) (v9 : FVec Ideal S8x128x512 .f32) (v15 : FVec Ideal S8x512 .f32) (r : Fin 8) (q : Fin 512) :
    k1_pay2 (F := Ideal) v6 v9 v15 (ix2 r q) = v15 (ix2 r q) + ∑ j : Fin 128, v6 (ix2 r j) * v9 (ix3 r j q) := by
  unfold k1_pay2
  dsimp only
  refine (congrFun (shapeCast_self _ _) (ix2 r q)).trans ?_
  exact congrArg (v15 (ix2 r q) + ·) (chunkSum_apply v6 v9 r q)

theorem pay3_apply (v6 : FVec Ideal S8x128 .f32) (v9 : FVec Ideal S8x128x512 .f32) (v15 : FVec Ideal S8x512 .f32) (r : Fin 8) (q : Fin 512) :
    k1_pay4 (F := Ideal) (k1_pay3 (F := Ideal) v6 v9 v15) (ix2 r q) = v15 (ix2 r q) + ∑ j : Fin 128, v6 (ix2 r j) * v9 (ix3 r j q) := by
  unfold k1_pay4 k1_pay3
  dsimp only
  refine (congrFun (shapeCast_self _ _) (ix2 r q)).trans ?_
  exact congrArg (v15 (ix2 r q) + ·) (chunkSum_apply v6 v9 r q)

theorem pay5_apply (v6 : FVec Ideal S8x128 .f32) (v9 : FVec Ideal S8x128x512 .f32) (v15 : FVec Ideal S8x512 .f32) (r : Fin 8) (q : Fin 512) :
    k1_pay5 (F := Ideal) v6 v9 v15 (ix2 r q) = v15 (ix2 r q) + ∑ j : Fin 128, v6 (ix2 r j) * v9 (ix3 r j q) := by
  unfold k1_pay5
  dsimp only
  refine (congrFun (shapeCast_self _ _) (ix2 r q)).trans ?_
  exact congrArg (v15 (ix2 r q) + ·) (chunkSum_apply v6 v9 r q)

theorem pay6_apply (v6 : FVec Ideal S8x128 .f32) (v9 : FVec Ideal S8x128x512 .f32) (v15 : FVec Ideal S8x512 .f32) (r : Fin 8) (q : Fin 512) :
    k1_pay6 (F := Ideal) v6 v9 v15 (ix2 r q) = v15 (ix2 r q) + ∑ j : Fin 128, v6 (ix2 r j) * v9 (ix3 r j q) := by
  unfold k1_pay6
  dsimp only
  refine (congrFun (shapeCast_self _ _) (ix2 r q)).trans ?_
  exact congrArg (v15 (ix2 r q) + ·) (chunkSum_apply v6 v9 r q)

/-- The zero block a first point starts from holds the extended real 0 everywhere. -/
theorem pay1_apply (j : S8x512.Idx) : k1_pay1 (F := Ideal) j = 0 := by
  unfold k1_pay1
  refine (congrFun (shapeCast_self _ _) j).trans ?_
  show Ideal.ofBits .f32 0x00000000#32 = 0
  exact Ideal.ofBits_zero_f32

/-- A chunk of the weights' block read at (r, j) is the block at (r, o + j). -/
theorem ldW_apply (x0 : FVec Ideal S8x512 .f32) (o : ℕ) (inb : ∀ a, (![0, o] : Fin 2 → ℕ) a + (![8, 128] : Fin 2 → ℕ) a ≤ S8x512.size a)
    (r : Fin 8) (j : Fin 128) (p : Fin 512) (hp : p.val = o + j.val) :
    View.ld (Val := Elt Ideal) (e' := .f32) x0 (Rect.unit (s := S8x512) ![0, o] ![8, 128] inb) (ix2 r j) = x0 (ix2 r p) :=
  congrArg x0 (funext fun a => Fin.ext (by
    match a with
    | ⟨0, _⟩ => show 0 + 1 * r.val = r.val; omega
    | ⟨1, _⟩ => show o + 1 * j.val = p.val; omega))

/-- A chunk of the states' block read at (r, j, q) is the block at (r, o + j, q). -/
theorem ldS_apply (x1 : FVec Ideal S8x512x512 .f32) (o : ℕ) (inb : ∀ a, (![0, o, 0] : Fin 3 → ℕ) a + (![8, 128, 512] : Fin 3 → ℕ) a ≤ S8x512x512.size a)
    (r : Fin 8) (j : Fin 128) (q : Fin 512) (p : Fin 512) (hp : p.val = o + j.val) :
    View.ld (Val := Elt Ideal) (e' := .f32) x1 (Rect.unit (s := S8x512x512) ![0, o, 0] ![8, 128, 512] inb) (ix3 r j q) = x1 (ix3 r p q) :=
  congrArg x1 (funext fun a => Fin.ext (by
    match a with
    | ⟨0, _⟩ => show 0 + 1 * r.val = r.val; omega
    | ⟨1, _⟩ => show o + 1 * j.val = p.val; omega
    | ⟨2, _⟩ => show 0 + 1 * q.val = q.val; omega))

/-- One grid point at (r, q): the accumulator's entry plus the sum over the block's 512 positions of weight · state. -/
theorem step_apply (x0 : FVec Ideal S8x512 .f32) (x1 : FVec Ideal S8x512x512 .f32) (a : FVec Ideal S8x512 .f32) (r : Fin 8) (q : Fin 512) :
    step (F := Ideal) x0 x1 a (ix2 r q) = a (ix2 r q) + ∑ p : Fin 512, x0 (ix2 r p) * x1 (ix3 r p q) := by
  unfold step
  rw [pay6_apply, pay5_apply, pay3_apply, pay2_apply]
  have hb := Cert.BlockSum.sum_blocks 4 128 (fun p : Fin (4 * 128) => x0 (ix2 r p) * x1 (ix3 r p q))
  refine Eq.trans ?_ (congrArg (a (ix2 r q) + ·) hb.symm)
  rw [Fin.sum_univ_four, ← add_assoc, ← add_assoc, ← add_assoc]
  have e : ∀ (k : Fin 4) (o : ℕ) (ho : o = 128 * k.val) (inbW) (inbS),
      (∑ j : Fin 128, View.ld (Val := Elt Ideal) (e' := .f32) x0 (Rect.unit (s := S8x512) ![0, o] ![8, 128] inbW) (ix2 r j) * View.ld (Val := Elt Ideal) (e' := .f32) x1 (Rect.unit (s := S8x512x512) ![0, o, 0] ![8, 128, 512] inbS) (ix3 r j q))
        = ∑ j : Fin 128, x0 (ix2 r (finProdFinEquiv (k, j))) * x1 (ix3 r (finProdFinEquiv (k, j)) q) := fun k o ho inbW inbS =>
    Finset.sum_congr rfl fun j _ => by
      have hp : (finProdFinEquiv (k, j)).val = o + j.val := by rw [Cert.BlockSum.finProdFinEquiv_val]; omega
      rw [ldW_apply x0 o inbW r j _ hp, ldS_apply x1 o inbS r j q _ hp]
  rw [e 0 0 rfl, e 1 128 rfl, e 2 256 rfl, e 3 384 rfl]

end Cert.KernelIdeal.Hand.Ctx

end
-- ==== Proof.ContextInv.lean ====
/-
  What the context kernel's accumulator holds after every grid point, at the extended reals.

  Point t = 8·bi + l of the grid reads the block of the attention weights w at rows 8·bi … 8·bi + 7 and positions
  512·l … 512·l + 511, and the block of the encoder states s at the same rows and positions (every feature).  A point
  adds to the accumulator's entry (r, q) the sum over its 512 positions of w · s, the first point of a row of points
  starting from zero.  So after point t the entry (r, q) is the sum over the positions 0 … 512·(l + 1) − 1 of
  w(8·bi + r, m) · s(8·bi + r, m, q): by induction on the point, a sum over a range of positions growing by 512 at
  each step.  Sums are in the extended reals' additive commutative monoid; no entry need be finite.
-/
import proofs.«165522_j54606214201412_2_alg».proof.Proof.ContextPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Ctx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open scoped BigOperators

variable (V : (c : Dev nD) → (b : Ref sig .tc) → Buf (Elt Ideal) ((c : Thread nD τ).loc b))

/-! ## Where a block sits in its array -/

/-- Point t's block of the weights is at block index (t / 8, t % 8); -/
theorem idx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
/-- of the states at (t / 8, t % 8, 0); -/
theorem idx1_1 : ∀ t : Fin cfg1.N, win1_1.index t 0 = t.val / 8 ∧ win1_1.index t 1 = t.val % 8 ∧ win1_1.index t 2 = 0 :=
  (by decide +kernel : ∀ t : Fin grid1.N, win1_1.index t 0 = t.val / 8 ∧ win1_1.index t 1 = t.val % 8 ∧ win1_1.index t 2 = 0)
/-- of the output at (t / 8, 0). -/
theorem idx1_2 : ∀ t : Fin cfg1.N, win1_2.index t 0 = t.val / 8 ∧ win1_2.index t 1 = 0 :=
  (by decide +kernel : ∀ t : Fin grid1.N, win1_2.index t 0 = t.val / 8 ∧ win1_2.index t 1 = 0)

/-- Point t's block of the weights, [8, 512], and of the states, [8, 512, 512], as arrays of extended reals. -/
abbrev blkW (c : Dev nD) (t : Fin cfg1.N) : FVec Ideal S8x512 .f32 := iblk1 (F := Ideal) V c 0 t
abbrev blkS (c : Dev nD) (t : Fin cfg1.N) : FVec Ideal S8x512x512 .f32 := iblk1 (F := Ideal) V c 1 t
/-- What the accumulator holds after point n. -/
abbrev accAt (c : Dev nD) (n : ℕ) (hn : n < cfg1.N) : FVec Ideal S8x512 .f32 := (outsAt1 (F := Ideal) V c n hn).2

/-- The weights' block at point t, at (r, p), is the weights' array at (8·(t / 8) + r, 512·(t % 8) + p). -/
theorem iblk1_0_apply (c : Dev nD) (t : Fin cfg1.N) (r : Fin 8) (p : Fin 512) (i : Fin 16) (j : Fin 4096)
    (hi : i.val = 8 * (t.val / 8) + r.val) (hj : j.val = 512 * (t.val % 8) + p.val) :
    blkW V c t (ix2 r p) = (V c main_v25 : S16x4096.Idx → EReal) (ix2 i j) := by
  unfold blkW iblk1
  rw [View.read_apply]
  show V c main_v25 _ = V c main_v25 _
  refine congrArg (V c main_v25) (funext fun a => Fin.ext ?_)
  match a with
  | ⟨0, _⟩ => show win1_0.index t 0 * 8 + 1 * r.val = i.val; rw [(idx1_0 t).1]; omega
  | ⟨1, _⟩ => show win1_0.index t 1 * 512 + 1 * p.val = j.val; rw [(idx1_0 t).2]; omega

/-- The states' block at point t, at (r, p, q), is the states' array at (8·(t / 8) + r, 512·(t % 8) + p, q). -/
theorem iblk1_1_apply (c : Dev nD) (t : Fin cfg1.N) (r : Fin 8) (p : Fin 512) (q : Fin 512) (i : Fin 16) (j : Fin 4096)
    (hi : i.val = 8 * (t.val / 8) + r.val) (hj : j.val = 512 * (t.val % 8) + p.val) :
    blkS V c t (ix3 r p q) = (V c main_v1 : S16x4096x512.Idx → EReal) (ix3 i j q) := by
  unfold blkS iblk1
  rw [View.read_apply]
  show V c main_v1 _ = V c main_v1 _
  refine congrArg (V c main_v1) (funext fun a => Fin.ext ?_)
  match a with
  | ⟨0, _⟩ => show win1_1.index t 0 * 8 + 1 * r.val = i.val; rw [(idx1_1 t).1]; omega
  | ⟨1, _⟩ => show win1_1.index t 1 * 512 + 1 * p.val = j.val; rw [(idx1_1 t).2.1]; omega
  | ⟨2, _⟩ => show win1_1.index t 2 * 512 + 1 * q.val = q.val; rw [(idx1_1 t).2.2]; omega

/-! ## The arrays at natural coordinates -/

/-- The weights at row i and position j, as natural numbers (zero outside the array: never consulted). -/
def wN (c : Dev nD) (i j : ℕ) : EReal :=
  if h : i < 16 ∧ j < 4096 then (V c main_v25 : S16x4096.Idx → EReal) (ix2 ⟨i, h.1⟩ ⟨j, h.2⟩) else 0
/-- The states at row i, position j and feature q. -/
def sN (c : Dev nD) (i j : ℕ) (q : Fin 512) : EReal :=
  if h : i < 16 ∧ j < 4096 then (V c main_v1 : S16x4096x512.Idx → EReal) (ix3 ⟨i, h.1⟩ ⟨j, h.2⟩ q) else 0
/-- Position m's term of the context sum of row 8·b + r at feature q. -/
def term (c : Dev nD) (b : ℕ) (r : Fin 8) (q : Fin 512) (m : ℕ) : EReal :=
  wN V c (8 * b + r.val) m * sN V c (8 * b + r.val) m q

/-- What point t adds at (r, q): the terms of its 512 positions. -/
theorem pointSum (c : Dev nD) (t : Fin cfg1.N) (r : Fin 8) (q : Fin 512) :
    (∑ p : Fin 512, blkW V c t (ix2 r p) * blkS V c t (ix3 r p q))
      = ∑ x ∈ Finset.range 512, term V c (t.val / 8) r q (512 * (t.val % 8) + x) := by
  rw [Finset.sum_range]
  refine Finset.sum_congr rfl fun p _ => ?_
  have hN : t.val < 16 := lt_of_lt_of_eq t.isLt (show cfg1.N = 16 from N_1)
  have hi : 8 * (t.val / 8) + r.val < 16 := by omega
  have hj : 512 * (t.val % 8) + p.val < 4096 := by omega
  unfold term wN sN
  rw [dif_pos ⟨hi, hj⟩, dif_pos ⟨hi, hj⟩]
  rw [iblk1_0_apply V c t r p ⟨_, hi⟩ ⟨_, hj⟩ rfl rfl, iblk1_1_apply V c t r p q ⟨_, hi⟩ ⟨_, hj⟩ rfl rfl]

/-! ## The accumulator, point by point -/

/-- What a first point of a row of points leaves, entry by entry: that point's sums. -/
theorem leftA (c : Dev nD) (t : Fin cfg1.N) (h0 : t.val % 8 = 0) (h1 : ¬t.val % 8 = 7) (r : Fin 8) (q : Fin 512) :
    sout1_A_0 (F := Ideal) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t) (ix2 r q)
      = ∑ p : Fin 512, blkW V c t (ix2 r p) * blkS V c t (ix3 r p q) := by
  refine (congrFun (sout1_A_0_eq (F := Ideal) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) (ix2 r q)).trans ?_
  refine (step_apply (iblk1 V c 0 t) (iblk1 V c 1 t) (k1_pay1 (F := Ideal)) r q).trans ?_
  rw [pay1_apply, zero_add]

/-- What a middle point leaves: what the point before left plus that point's sums. -/
theorem leftB (c : Dev nD) (t : Fin cfg1.N) (h0 : ¬t.val % 8 = 0) (h1 : ¬t.val % 8 = 7) (r : Fin 8) (q : Fin 512) :
    sout1_B_0 (F := Ideal) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2 (ix2 r q)
      = accAt V c (t.val - 1) (Nat.lt_of_le_of_lt (Nat.sub_le _ _) t.isLt) (ix2 r q) + ∑ p : Fin 512, blkW V c t (ix2 r p) * blkS V c t (ix3 r p q) := by
  refine (congrFun (sout1_B_0_eq (F := Ideal) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) (ix2 r q)).trans ?_
  exact step_apply (iblk1 V c 0 t) (iblk1 V c 1 t) (outsAt1 V c (t.val - 1) (Nat.lt_of_le_of_lt (Nat.sub_le _ _) t.isLt)).2 r q

/-- What a last point of a row leaves in the accumulator: the same. -/
theorem leftC (c : Dev nD) (t : Fin cfg1.N) (h0 : ¬t.val % 8 = 0) (h1 : t.val % 8 = 7) (r : Fin 8) (q : Fin 512) :
    sout1_C_0 (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2 (ix2 r q)
      = accAt V c (t.val - 1) (Nat.lt_of_le_of_lt (Nat.sub_le _ _) t.isLt) (ix2 r q) + ∑ p : Fin 512, blkW V c t (ix2 r p) * blkS V c t (ix3 r p q) := by
  refine (congrFun (sout1_C_0_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) (ix2 r q)).trans ?_
  exact step_apply (iblk1 V c 0 t) (iblk1 V c 1 t) (outsAt1 V c (t.val - 1) (Nat.lt_of_le_of_lt (Nat.sub_le _ _) t.isLt)).2 r q

/-- What a last point of a row leaves in the output block: the same again. -/
theorem leftOut (c : Dev nD) (t : Fin cfg1.N) (h0 : ¬t.val % 8 = 0) (h1 : t.val % 8 = 7) (r : Fin 8) (q : Fin 512) :
    out1_C_2 (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2 (ix2 r q)
      = accAt V c (t.val - 1) (Nat.lt_of_le_of_lt (Nat.sub_le _ _) t.isLt) (ix2 r q) + ∑ p : Fin 512, blkW V c t (ix2 r p) * blkS V c t (ix3 r p q) := by
  refine (congrFun (out1_C_2_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) (ix2 r q)).trans ?_
  exact step_apply (iblk1 V c 0 t) (iblk1 V c 1 t) (outsAt1 V c (t.val - 1) (Nat.lt_of_le_of_lt (Nat.sub_le _ _) t.isLt)).2 r q

/-- After a first point of a row of points the accumulator holds that point's sums. -/
theorem accA (c : Dev nD) (t : Fin cfg1.N) (h0 : t.val % 8 = 0) (r : Fin 8) (q : Fin 512) :
    accAt V c t.val t.isLt (ix2 r q) = ∑ p : Fin 512, blkW V c t (ix2 r p) * blkS V c t (ix3 r p q) := by
  have h1 : ¬t.val % 8 = 7 := by omega
  unfold accAt
  rw [outsAt1_A V c t h0 h1]
  dsimp only
  exact leftA V c t h0 h1 r q

/-- After any other point it holds what the point before left plus that point's sums. -/
theorem accB (c : Dev nD) (t : Fin cfg1.N) (h0 : ¬t.val % 8 = 0) (r : Fin 8) (q : Fin 512) :
    accAt V c t.val t.isLt (ix2 r q)
      = accAt V c (t.val - 1) (Nat.lt_of_le_of_lt (Nat.sub_le _ _) t.isLt) (ix2 r q) + ∑ p : Fin 512, blkW V c t (ix2 r p) * blkS V c t (ix3 r p q) := by
  by_cases h1 : t.val % 8 = 7
  · have e := leftC V c t h0 h1 r q
    unfold accAt at e ⊢
    rw [outsAt1_C V c t h0 h1]
    dsimp only
    exact e
  · have e := leftB V c t h0 h1 r q
    unfold accAt at e ⊢
    rw [outsAt1_B V c t h0 h1]
    dsimp only
    exact e

/-- THE INVARIANT: after point n = 8·bi + l the accumulator's entry (r, q) is the sum of the terms of the positions
    0 … 512·(l + 1) − 1 of row 8·bi + r. -/
theorem acc_eq (c : Dev nD) : ∀ (n : ℕ) (hn : n < cfg1.N) (r : Fin 8) (q : Fin 512),
    accAt V c n hn (ix2 r q) = ∑ m ∈ Finset.range (512 * (n % 8 + 1)), term V c (n / 8) r q m
  | 0, hn, r, q => by
    refine (accA V c ⟨0, hn⟩ rfl r q).trans ?_
    refine (pointSum V c ⟨0, hn⟩ r q).trans ?_
    refine Finset.sum_congr rfl fun x _ => ?_
    show term V c (0 / 8) r q (512 * (0 % 8) + x) = term V c (0 / 8) r q x
    rw [Nat.zero_mod, Nat.mul_zero, Nat.zero_add]
  | n + 1, hn, r, q => by
    by_cases h0 : (n + 1) % 8 = 0
    · refine (accA V c ⟨n + 1, hn⟩ h0 r q).trans ?_
      refine (pointSum V c ⟨n + 1, hn⟩ r q).trans ?_
      show ∑ x ∈ Finset.range 512, term V c ((n + 1) / 8) r q (512 * ((n + 1) % 8) + x) = _
      rw [h0, Nat.zero_add, Nat.mul_one]
      refine Finset.sum_congr rfl fun x _ => ?_
      rw [Nat.mul_zero, Nat.zero_add]
    · refine (accB V c ⟨n + 1, hn⟩ h0 r q).trans ?_
      refine (congrArg₂ (· + ·) (acc_eq c n (Nat.lt_of_succ_lt hn) r q) (pointSum V c ⟨n + 1, hn⟩ r q)).trans ?_
      show ∑ m ∈ Finset.range (512 * (n % 8 + 1)), term V c (n / 8) r q m + ∑ x ∈ Finset.range 512, term V c ((n + 1) / 8) r q (512 * ((n + 1) % 8) + x) = _
      have e1 : n / 8 = (n + 1) / 8 := by omega
      have e2 : n % 8 + 1 = (n + 1) % 8 := by omega
      rw [e1, e2, show 512 * ((n + 1) % 8 + 1) = 512 * ((n + 1) % 8) + 512 from by omega, Finset.sum_range_add]

end Cert.KernelIdeal.Hand.Ctx

end
-- ==== Proof.ContextValue.lean ====
/-
  The context kernel's result array is the specification's context of the attention weights and the encoder states.

  The output's blocks are written back at the last point of each row of points, t = 8·bi + 7.  There the accumulator
  — and the copy of it in the output block — holds, at (r, q), the sum over all 4096 positions m of
  w(8·bi + r, m) · s(8·bi + r, m, q), which is the specification's context at (8·bi + r, q) once the squeezed states
  s(b, l, a) are read as the encoder states x(b, l, 0, a).  The two blocks written back cover the sixteen rows, so
  the array ends holding the specification's context everywhere.
-/
import proofs.«165522_j54606214201412_2_alg».proof.Proof.ContextInv
import proofs.«165522_j54606214201412_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Ctx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open scoped BigOperators

variable (V : (c : Dev nD) → (b : Ref sig .tc) → Buf (Elt Ideal) ((c : Thread nD τ).loc b))

/-- Every block of the output has its full size [8, 512]. -/
theorem xsize1_2 : ∀ t : Fin cfg1.N, win1_2.xsize (grid1.coords t) 0 = 8 ∧ win1_2.xsize (grid1.coords t) 1 = 512 :=
  (by decide +kernel : ∀ t : Fin grid1.N, win1_2.xsize (grid1.coords t) 0 = 8 ∧ win1_2.xsize (grid1.coords t) 1 = 512)

/-- After the last point of a row of points the accumulator's entry (r, q) is the whole context sum of row
    8·(t / 8) + r at feature q, over the encoder states. -/
theorem acc_last (c : Dev nD) (x3 : S16x4096x1x512.Idx → EReal)
    (h1 : ∀ (b : Fin 16) (l : Fin 4096) (a : Fin 512), (V c main_v1 : S16x4096x512.Idx → EReal) (ix3 b l a) = x3 (ix4 b l (0 : Fin 1) a))
    (t : Fin cfg1.N) (h7 : t.val % 8 = 7) (r : Fin 8) (q : Fin 512) (b : Fin 16) (hb : b.val = 8 * (t.val / 8) + r.val) :
    accAt V c t.val t.isLt (ix2 r q) = Cert.Spec.context (V c main_v25 : S16x4096.Idx → EReal) x3 (ix2 b q) := by
  refine (acc_eq V c t.val t.isLt r q).trans ?_
  unfold Cert.Spec.context
  rw [h7, show 512 * (7 + 1) = 4096 from rfl, Finset.sum_range]
  refine Finset.sum_congr rfl fun l _ => ?_
  have hl : l.val < 4096 := l.isLt
  have hi : 8 * (t.val / 8) + r.val < 16 := by have := b.isLt; omega
  unfold term wN sN
  rw [dif_pos ⟨hi, hl⟩, dif_pos ⟨hi, hl⟩]
  have eb : (⟨8 * (t.val / 8) + r.val, hi⟩ : Fin 16) = b := Fin.ext hb.symm
  rw [eb, h1 b ⟨l.val, hl⟩ q] <;> rfl

/-- What a write-back writes is the block of the specification's context it lands on. -/
theorem flushed_eq (c : Dev nD) (x3 : S16x4096x1x512.Idx → EReal)
    (h1 : ∀ (b : Fin 16) (l : Fin 4096) (a : Fin 512), (V c main_v1 : S16x4096x512.Idx → EReal) (ix3 b l a) = x3 (ix4 b l (0 : Fin 1) a))
    (t : Fin cfg1.N) (hf : (cfg1.win 2).flush t = true) :
    (dat1 (F := Ideal) V c).flushed 2 t
      = ((cfg1.win 2).blk t).view.read (Elt Ideal) (Cert.Spec.context (V c main_v25 : S16x4096.Idx → EReal) x3) := by
  have h7 : t.val % 8 = 7 := (flush1_2 t).mp hf
  have h0 : ¬t.val % 8 = 0 := by omega
  have hN : t.val < 16 := lt_of_lt_of_eq t.isLt (show cfg1.N = 16 from N_1)
  funext y
  obtain ⟨r, q, rfl⟩ : ∃ (r : Fin 8) (q : Fin 512), y = ix2 r q := ⟨y 0, y 1, eq_ix2 (n0 := 8) (n1 := 512) y⟩
  have hb : 8 * (t.val / 8) + r.val < 16 := by omega
  -- the left side: the output block's copy of the accumulator
  have eL : (dat1 (F := Ideal) V c).flushed 2 t (ix2 r q) = accAt V c t.val t.isLt (ix2 r q) := by
    show (cfg1.win 2).cut (grid1.coords t) ((dat1 (F := Ideal) V c).after 2 t) (ix2 r q) = _
    rw [after1_2]
    refine Eq.trans ?_ (accB V c t h0 r q).symm
    rw [outsAt1_C V c t h0 h7]
    dsimp only
    refine Eq.trans ?_ (leftOut V c t h0 h7 r q)
    exact congrArg _ (funext fun a => Fin.ext (by match a with | ⟨0, _⟩ => rfl | ⟨1, _⟩ => rfl))
  -- the right side: the specification's context at row 8·(t / 8) + r
  have eR : ((cfg1.win 2).blk t).view.read (Elt Ideal) (Cert.Spec.context (V c main_v25 : S16x4096.Idx → EReal) x3) (ix2 r q)
      = Cert.Spec.context (V c main_v25 : S16x4096.Idx → EReal) x3 (ix2 (⟨8 * (t.val / 8) + r.val, hb⟩ : Fin 16) q) := by
    rw [View.read_apply]
    show Cert.Spec.context (V c main_v25 : S16x4096.Idx → EReal) x3 _ = _
    refine congrArg (Cert.Spec.context (V c main_v25 : S16x4096.Idx → EReal) x3) (funext fun a => Fin.ext ?_)
    match a with
    | ⟨0, _⟩ => show win1_2.index t 0 * 8 + 1 * r.val = 8 * (t.val / 8) + r.val; rw [(idx1_2 t).1]; omega
    | ⟨1, _⟩ => show win1_2.index t 1 * 512 + 1 * q.val = q.val; rw [(idx1_2 t).2]; omega
  rw [eL, eR]
  exact acc_last V c x3 h1 t h7 r q ⟨8 * (t.val / 8) + r.val, hb⟩ rfl

/-- Every entry of the output array is in the block written back at the last point of its row of points. -/
theorem cover1_2 (c : Dev nD) (i : ((cfg1.win 2).arr.view.loc (c.tc : Thread nD τ)).2.ty.Idx) :
    ∃ t : Fin cfg1.N, (cfg1.win 2).flush t = true ∧ i ∈ ((cfg1.win 2).blk t).view.set := by
  have hi0 : (i 0 : Nat) < 16 := (i 0).isLt
  have hi1 : (i 1 : Nat) < 512 := (i 1).isLt
  have hN : cfg1.N = 16 := N_1
  have ht : 8 * ((i 0 : Nat) / 8) + 7 < cfg1.N := by omega
  refine ⟨⟨8 * ((i 0 : Nat) / 8) + 7, ht⟩, (flush1_2 _).mpr (by show (8 * ((i 0 : Nat) / 8) + 7) % 8 = 7; omega), ?_⟩
  show i ∈ ((View.whole main_v26).slice (win1_2.rect ⟨8 * ((i 0 : Nat) / 8) + 7, ht⟩)).set
  rw [View.set_slice_whole, Rect.mem_set_unit]
  intro a
  match a with
  | ⟨0, _⟩ =>
    show win1_2.index ⟨8 * ((i 0 : Nat) / 8) + 7, ht⟩ 0 * 8 ≤ (i 0 : Nat) ∧ (i 0 : Nat) < win1_2.index ⟨8 * ((i 0 : Nat) / 8) + 7, ht⟩ 0 * 8 + win1_2.xsize (grid1.coords ⟨8 * ((i 0 : Nat) / 8) + 7, ht⟩) 0
    rw [(idx1_2 ⟨8 * ((i 0 : Nat) / 8) + 7, ht⟩).1, (xsize1_2 ⟨8 * ((i 0 : Nat) / 8) + 7, ht⟩).1]
    show (8 * ((i 0 : Nat) / 8) + 7) / 8 * 8 ≤ (i 0 : Nat) ∧ (i 0 : Nat) < (8 * ((i 0 : Nat) / 8) + 7) / 8 * 8 + 8
    omega
  | ⟨1, _⟩ =>
    show win1_2.index ⟨8 * ((i 0 : Nat) / 8) + 7, ht⟩ 1 * 512 ≤ (i 1 : Nat) ∧ (i 1 : Nat) < win1_2.index ⟨8 * ((i 0 : Nat) / 8) + 7, ht⟩ 1 * 512 + win1_2.xsize (grid1.coords ⟨8 * ((i 0 : Nat) / 8) + 7, ht⟩) 1
    rw [(idx1_2 ⟨8 * ((i 0 : Nat) / 8) + 7, ht⟩).2, (xsize1_2 ⟨8 * ((i 0 : Nat) / 8) + 7, ht⟩).2]
    omega

end Cert.KernelIdeal.Hand.Ctx

namespace Cert.KernelIdeal.Hand

open Cert.KernelIdeal Cert.KernelIdeal.Gen Cert.KernelIdeal.Hand.Ctx
open Idealize.ShloMosaic Idealize.ShloMosaic.TcCoe Idealize.SL Idealize.SL.Sem Idealize.ShloMosaic.ValueIdx

variable (V : (c : Dev nD) → (b : Ref sig .tc) → Buf (Elt Ideal) ((c : Thread nD τ).loc b))

/-- The result array of the context kernel, after its last point, is the specification's context of the attention
    weights it was handed and the encoder states, the squeezed array it reads being the encoder states' entries. -/
theorem context_final (c : Dev nD) (x3 : S16x4096x1x512.Idx → EReal)
    (h1 : ∀ (b : Fin 16) (l : Fin 4096) (a : Fin 512), (V c main_v1 : S16x4096x512.Idx → EReal) (ix3 b l a) = x3 (ix4 b l (0 : Fin 1) a)) :
    (dat1 (F := Ideal) V c).arrAt 2 cfg1.N = Cert.Spec.context (V c main_v25 : S16x4096.Idx → EReal) x3 :=
  (dat1 (F := Ideal) V c).arrAt_eq_of_cover 2 (Cert.Spec.context (V c main_v25 : S16x4096.Idx → EReal) x3)
    (fun t hf => flushed_eq V c x3 h1 t hf) (cover1_2 c)

end Cert.KernelIdeal.Hand

end
-- ==== Proof.KI_Results.lean ====
/-
  The idealized kernel program's run with both results named.

  The context region is handed the weights (the reference's chain of the specification's scores and the
  mask) and the squeezed encoder states, and leaves in its output array the specification's context of
  them.  So every weakly fair execution of the program ends with the context array at the
  specification's context, the weights array at the weights, and every argument as launched.
-/
import proofs.«165522_j54606214201412_2_alg».proof.Proof.KI_Host
import proofs.«165522_j54606214201412_2_alg».proof.Proof.ContextValue

-- membership in a rectangle of full-size extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

variable (m : (ℓ : Loc nD τ sig) → Buf (Elt Ideal) ℓ) (c : Dev nD)

/-- The context region leaves the specification's context of the weights and the encoder states. -/
theorem W4_v26 : W4 (F := Ideal) m c (Proc.devRef .tc main_v26) = ctxOf m c := by
  refine (W4_arr m c 2).trans ?_
  refine (context_final (V3 m) c (m ((c : Thread nD τ).loc main_arg3)) (W3_v1_apply m c)).trans ?_
  unfold ctxOf
  exact congrArg (fun w => Cert.Spec.context w (m ((c : Thread nD τ).loc main_arg3))) (W3_v25 m c)

/-- THE VALUE RUN: both results named, the arguments unchanged. -/
theorem run_values (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26) = ctxOf m c
      ∧ r.2.mem ((c.tc : Thread nD τ).loc main_v25) = attnOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v26 (by decide))).trans (W4_v26 m c),
     (h c _ (mem_uc main_v25 (by decide))).trans (W4_v25 m c),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide))⟩)
    (run_all m ρ)

end Cert.KernelIdeal.Hand

end
-- ==== Proof.lean ====
/-
  The five claims of this certificate, assembled.

  The program computes additive attention: scores e(b, l) = ∑ a, tanh (x(b, l, 0, a) + d(b, a)) · v(a)
  from the encoder features x, the decoder projection d and the scoring vector v; weights = the
  softmax of the scores along l, times the mask, renormalised; context(b, a) = ∑ l, w(b, l) · s(b, l, 0, a)
  from the weights w and the encoder states s.  The kernel computes the scores and the context in two
  pipelined regions (the scores in chunks of 128 positions, the context by an accumulator over rows of
  8 grid points) with the softmax on the host between them; the reference computes everything on the
  host.  On the extended reals the two differ only in the order of a product's factors and in how finite
  sums are grouped, which changes nothing in an additive commutative monoid: no finiteness of the
  inputs is used, and the precondition is never opened.

  The frames of the two kernel programs come from one run each over the program's four items (host
  operations, scores region, host operations, context region); the reference's frame from its run.  The
  idealization rewrote no operation, so its claim is the trivial one.  The comparison names both
  results of the kernel's run and shows the reference's results are the same functions of the arguments.
-/
import proofs.«165522_j54606214201412_2_alg».proof.Defs
import proofs.«165522_j54606214201412_2_alg».proof.Proof.Gen.Kernel
import proofs.«165522_j54606214201412_2_alg».proof.Proof.Gen.KernelIdeal
import proofs.«165522_j54606214201412_2_alg».proof.Proof.Gen.ReferenceIdeal
import proofs.«165522_j54606214201412_2_alg».proof.Proof.Gen.Pre_finite_inputs
import proofs.«165522_j54606214201412_2_alg».proof.Proof.K_Run
import proofs.«165522_j54606214201412_2_alg».proof.Proof.KI_Results
import proofs.«165522_j54606214201412_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- The reference's context, as the specification's function of its arguments. -/
theorem ref_ctx (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v33 m' c
      = Cert.Spec.context (Cert.ReferenceIdeal.RefValue.tail (Cert.Spec.scores (m' ((c.tc : Thread Cert.ReferenceIdeal.nD Cert.ReferenceIdeal.τ).loc Cert.ReferenceIdeal.main_arg0))
          (Cert.ReferenceIdeal.Read.val_main_v5 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
          (m' ((c.tc : Thread Cert.ReferenceIdeal.nD Cert.ReferenceIdeal.τ).loc Cert.ReferenceIdeal.main_arg5)))
          (m' ((c.tc : Thread Cert.ReferenceIdeal.nD Cert.ReferenceIdeal.τ).loc Cert.ReferenceIdeal.main_arg4)))
          (m' ((c.tc : Thread Cert.ReferenceIdeal.nD Cert.ReferenceIdeal.τ).loc Cert.ReferenceIdeal.main_arg3)) := by
  rw [Cert.ReferenceIdeal.Read.val_main_v33_eq, Cert.ReferenceIdeal.RefValue.context_eq, Cert.ReferenceIdeal.RefValue.attn_eq_tail,
    Cert.ReferenceIdeal.RefValue.scores_eq]

/-- The reference's weights, likewise. -/
theorem ref_attn (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v29 m' c
      = Cert.ReferenceIdeal.RefValue.tail (Cert.Spec.scores (m' ((c.tc : Thread Cert.ReferenceIdeal.nD Cert.ReferenceIdeal.τ).loc Cert.ReferenceIdeal.main_arg0))
          (Cert.ReferenceIdeal.Read.val_main_v5 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
          (m' ((c.tc : Thread Cert.ReferenceIdeal.nD Cert.ReferenceIdeal.τ).loc Cert.ReferenceIdeal.main_arg5)))
          (m' ((c.tc : Thread Cert.ReferenceIdeal.nD Cert.ReferenceIdeal.τ).loc Cert.ReferenceIdeal.main_arg4)) := by
  rw [Cert.ReferenceIdeal.Read.val_main_v29_eq, Cert.ReferenceIdeal.RefValue.attn_eq_tail, Cert.ReferenceIdeal.RefValue.scores_eq]

/-- From memories agreeing on the arguments both programs end with the specification's context and weights. -/
theorem algebraic : Cert.algebraic_KernelIdeal_ReferenceIdeal := by
  intro m ρ m' ρ' _ hagree
  refine ⟨fun c => Cert.KernelIdeal.Hand.ctxOf m c, fun c => Cert.KernelIdeal.Hand.attnOf m c,
    Cert.KernelIdeal.Hand.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [ref_ctx, (hagree c).1, (hagree c).2.1, (hagree c).2.2.1, (hagree c).2.2.2.1, (hagree c).2.2.2.2.1,
      (hagree c).2.2.2.2.2.1, (hagree c).2.2.2.2.2.2.1, (hagree c).2.2.2.2.2.2.2]
    rfl
  · rw [ref_attn, (hagree c).1, (hagree c).2.1, (hagree c).2.2.1, (hagree c).2.2.2.2.1,
      (hagree c).2.2.2.2.2.1, (hagree c).2.2.2.2.2.2.1, (hagree c).2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
